-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x7 : Shape := ⟨2, ![128, 7]⟩
abbrev S7 : Shape := ⟨1, ![7]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x7 : S_.BroadcastsInDim S128x7 (![] : Fin 0 → Fin S128x7.rank)
  reducesTo_S128x7_S_d0_1 : S128x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S128 .f32) (main_arg6 : FVec F S128x7 .f32) (main_arg7 : FVec F S7 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x7 .f32 := Host.absf main_arg6
  let main_cst_8 : FVec F S_ .f32 := constant S_ .f32 0x7F800000#32
  let main_v25 : FVec F S128x7 .f32 := broadcastInDim S128x7 ![] bcast_S_S128x7 main_cst_8
  let main_v26 : IVec S128x7 1 := cmpf .olt main_v24 main_v25
  let main_c_9 : IVec S_ 1 := constantI S_ 1 1#1
  let main_v27 : IVec S_ 1 := (fun x v => Host.reduce IntOp.andi x v reducesTo_S128x7_S_d0_1 h_S_) main_v26 main_c_9
  let main_v28 : IVec S_ 1 := andi main_v23 main_v27
  let main_v29 : FVec F S7 .f32 := Host.absf main_arg7
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  main_v33

def fn {F : FTy → Type} [FloatOps F] (main_arg0 : FVec F S50000x512 .f32) (main_arg1 : IVec S2x800000 32) (main_arg2 : FVec F S512x256 .f32) (main_arg3 : FVec F S256 .f32) (main_arg4 : FVec F S256x128 .f32) (main_arg5 : FVec F S128 .f32) (main_arg6 : FVec F S128x7 .f32) (main_arg7 : FVec F S7 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x7 : Shape := ⟨2, ![128, 7]⟩
abbrev S7 : Shape := ⟨1, ![7]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x256 : Shape := ⟨2, ![50000, 256]⟩
abbrev S2000x512 : Shape := ⟨2, ![2000, 512]⟩
abbrev S2000x1 : Shape := ⟨2, ![2000, 1]⟩
abbrev S2000x256 : Shape := ⟨2, ![2000, 256]⟩
abbrev S850000x256 : Shape := ⟨2, ![850000, 256]⟩
abbrev S50000x128 : Shape := ⟨2, ![50000, 128]⟩
abbrev S2000x128 : Shape := ⟨2, ![2000, 128]⟩
abbrev S1x256 : Shape := ⟨2, ![1, 256]⟩
abbrev S850000x128 : Shape := ⟨2, ![850000, 128]⟩
abbrev S50000x7 : Shape := ⟨2, ![50000, 7]⟩
abbrev S2000x7 : Shape := ⟨2, ![2000, 7]⟩
abbrev S1x128 : Shape := ⟨2, ![1, 128]⟩
abbrev S1x7 : Shape := ⟨2, ![1, 7]⟩

abbrev nBuf : Space → Nat
  | .hbm => 61
  | .vmem => 24
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x7, .f32⟩
  | .hbm, ⟨7, _⟩ => ⟨S7, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x256, .bf16⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000x256, .bf16⟩
  | .hbm, ⟨40, _⟩ => ⟨S850000x256, .f32⟩
  | .hbm, ⟨41, _⟩ => ⟨S_, .f32⟩
  | .hbm, ⟨42, _⟩ => ⟨S50000x256, .f32⟩
  | .hbm, ⟨43, _⟩ => ⟨S850000x1, .i32⟩
  | .hbm, ⟨44, _⟩ => ⟨S50000x256, .f32⟩
  | .hbm, ⟨45, _⟩ => ⟨S50000x128, .bf16⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .bf16⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S50000x7, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x1, .f32⟩
  | .local _ .vmem, ⟨4, _⟩ => ⟨S2000x1, .f32⟩
  | .local _ .vmem, ⟨5, _⟩ => ⟨S2000x256, .bf16⟩
  | .local _ .vmem, ⟨6, _⟩ => ⟨S2000x256, .bf16⟩
  | .local _ .vmem, ⟨7, _⟩ => ⟨S2000x256, .f32⟩
  | .local _ .vmem, ⟨8, _⟩ => ⟨S2000x256, .f32⟩
  | .local _ .vmem, ⟨9, _⟩ => ⟨S256, .f32⟩
  | .local _ .vmem, ⟨10, _⟩ => ⟨S2000x1, .f32⟩
  | .local _ .vmem, ⟨11, _⟩ => ⟨S2000x1, .f32⟩
  | .local _ .vmem, ⟨12, _⟩ => ⟨S256x128, .f32⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S128, .f32⟩
  | .local _ .vmem, ⟨18, _⟩ => ⟨S2000x1, .f32⟩
  | .local _ .vmem, ⟨19, _⟩ => ⟨S2000x1, .f32⟩
  | .local _ .vmem, ⟨20, _⟩ => ⟨S128x7, .f32⟩
  | .local _ .vmem, ⟨21, _⟩ => ⟨S7, .f32⟩
  | .local _ .vmem, ⟨22, _⟩ => ⟨S2000x7, .f32⟩
  | .local _ .vmem, ⟨23, _⟩ => ⟨S2000x7, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x7 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S7 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x7 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S2000x256_S2000x256 : S2000x256.ShapeCasts S2000x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x7_S128x7_0_0 : ∀ a, (![0, 0] : Fin 2 → Nat) a + S128x7.size a ≤ S128x7.size a
  h_S128x7 : 0 < S128x7.numel
  inb_S7_S7_0 : ∀ a, (![0] : Fin 1 → Nat) a + S7.size a ≤ S7.size a
  h_S7 : 0 < S7.numel
  shapeCasts_S7_S1x7 : S7.ShapeCasts S1x7
  broadcasts_S1x7_S2000x7 : S1x7.Broadcasts S2000x7
  inb_S2000x7_S2000x7_0_0 : ∀ a, (![0, 0] : Fin 2 → Nat) a + S2000x7.size a ≤ S2000x7.size a
  h_S2000x7 : 0 < S2000x7.numel
  scatter_S50000_S850000x1_S850000_n_0_0_1_wf : ScatterDims.WF S50000 S850000x1 S850000 [] [0] [0] 1
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x7_S2000x7_1_0_0_1_n_n_wf : DotDims.WF S2000x128 S128x7 S2000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .bf16 = 32 ∨ (Rect.block (s := S50000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .bf16 = 32 ∨ (Rect.block (s := S50000x128) S2000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x7.size a ≤ S128x7.size a
  hwx2_3 : ∀ i : grid2.Coords, EltTy.bits .f32 = 32 ∨ (Rect.block (s := S128x7) S128x7.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S7.size a ≤ S7.size a
  hwx2_4 : ∀ i : grid2.Coords, EltTy.bits .f32 = 32 ∨ (Rect.block (s := S7) S7.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x7.size a ≤ S50000x7.size a
  hwx2_5 : ∀ i : grid2.Coords, EltTy.bits .f32 = 32 ∨ (Rect.block (s := S50000x7) S2000x7.size (cc2_transform_5 i) (hinb2_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x7_S2000x7_1_0_0_1_n_n : DotDims S2000x128 S128x7 S2000x7 where
  lhsContracting := [1]
  rhsContracting := [0]
  lhsNonContracting := [0]
  rhsNonContracting := [1]
  lhsBatch := []
  rhsBatch := []
  wf := dot_S2000x128_S128x7_S2000x7_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x7.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S7.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S2000x7.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x7 : Shape := ⟨2, ![128, 7]⟩
abbrev S7 : Shape := ⟨1, ![7]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x256 : Shape := ⟨2, ![50000, 256]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩
abbrev S50000x7 : Shape := ⟨2, ![50000, 7]⟩
abbrev S1x7 : Shape := ⟨2, ![1, 7]⟩

abbrev nBuf : Space → Nat
  | .hbm => 135
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256x128, .f32⟩
  | 5 => ⟨S128, .f32⟩
  | 6 => ⟨S128x7, .f32⟩
  | 7 => ⟨S7, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S50000x256, .f32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x256, .f32⟩
  | 58 => ⟨S850000x1, .f32⟩
  | 59 => ⟨S850000x256, .f32⟩
  | 60 => ⟨S850000x256, .f32⟩
  | 61 => ⟨S_, .f32⟩
  | 62 => ⟨S50000x256, .f32⟩
  | 63 => ⟨S850000x1, .i32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S50000x128, .f32⟩
  | 72 => ⟨S_, .f32⟩
  | 73 => ⟨S850000, .f32⟩
  | 74 => ⟨S_, .f32⟩
  | 75 => ⟨S50000, .f32⟩
  | 76 => ⟨S850000x1, .i32⟩
  | 77 => ⟨S50000, .f32⟩
  | 78 => ⟨S_, .f32⟩
  | 79 => ⟨S50000, .f32⟩
  | 80 => ⟨S50000, .i1⟩
  | 81 => ⟨S50000, .f32⟩
  | 82 => ⟨S_, .f32⟩
  | 83 => ⟨S_, .f32⟩
  | 84 => ⟨S50000, .f32⟩
  | 85 => ⟨S50000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x128, .f32⟩
  | 114 => ⟨S850000x1, .f32⟩
  | 115 => ⟨S850000x128, .f32⟩
  | 116 => ⟨S850000x128, .f32⟩
  | 117 => ⟨S_, .f32⟩
  | 118 => ⟨S50000x128, .f32⟩
  | 119 => ⟨S850000x1, .i32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .i1⟩
  | 127 => ⟨S_, .f32⟩
  | _ => ⟨S50000x512, .f32⟩

abbrev hbmTy0_1 (i : Nat) : BufTy := match i % 128 with
  | 0 => ⟨S50000x128, .f32⟩
  | 1 => ⟨S50000x128, .f32⟩
  | 2 => ⟨S50000x128, .f32⟩
  | 3 => ⟨S50000x7, .f32⟩
  | 4 => ⟨S1x7, .f32⟩
  | 5 => ⟨S50000x7, .f32⟩
  | 6 => ⟨S50000x7, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_20 : Ref sig .tc := ⟨.hbm, 124, rfl⟩
abbrev main_v88 : Ref sig .tc := ⟨.hbm, 125, rfl⟩
abbrev main_v89 : Ref sig .tc := ⟨.hbm, 126, rfl⟩
abbrev main_cst_21 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x7_S50000x7_1_0_0_1_n_n_wf : DotDims.WF S50000x128 S128x7 S50000x7 [1] [0] [0] [1] [] []

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x7_S50000x7_1_0_0_1_n_n : DotDims S50000x128 S128x7 S50000x7 where
  lhsContracting := [1]
  rhsContracting := [0]
  lhsNonContracting := [0]
  rhsNonContracting := [1]
  lhsBatch := []
  rhsBatch := []
  wf := dot_S50000x128_S128x7_S50000x7_1_0_0_1_n_n_wf

class Facts : Prop extends Facts₀ where

variable [Facts]
-- ==== Proof.KRun.lean ====
/-
  The idealized kernel's run with its result NAMED.

  The program is three grid regions among stretches of host operations. Its run is stated once per boundary: the buffer
  contents after each stretch and after each region are a fold from the launch memory, and every weakly fair execution
  terminates with every unscoped buffer at the last fold. Read at the arguments' buffers that is the frame; read at the
  result's buffer it names the result: the last region's output array after its last write-back.
-/
import proofs.«107428_j55207509623327_2_alg».proof.Proof.Gen.KernelIdeal.Frame

set_option maxRecDepth 16384

noncomputable section

namespace Cert.KernelIdeal.RunOut

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    the argument arrays as launched. -/
theorem run_out : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

/-- The result buffer is the last region's output window's array. -/
theorem result_eq (c : Dev nD) :
    W8 m ρ c (Proc.devRef .tc main_v40) = (dat2 (V7 m ρ) c).arrAt 5 cfg2.N := W8_arr m ρ c 5

end Cert.KernelIdeal.RunOut

end
-- ==== Proof.KValueDefs.lean ====
/-
  The host side of the idealized kernel, as functions of the edge-index argument: the edge lists with the self loops
  appended, the degree, the per-node factor `deg^(-1/2)` (zero where the degree is not positive) as a vector and as a
  column, and the gather / scatter-add step between two regions.
-/
import proofs.«107428_j55207509623327_2_alg».proof.Proof.KRun
import Idealize.ShloMosaic.Lib.StableHlo.Run
import Idealize.ShloMosaic.PureOps.Ideal

set_option maxRecDepth 16384

noncomputable section

namespace Cert.KernelIdeal.Through

open Cert.KernelIdeal Cert.KernelIdeal.Gen Idealize.ShloMosaic Idealize.ShloMosaic.TcCoe Idealize.SL.Sem

/-- A buffer that no operation of a stretch writes keeps its contents across the stretch. -/
macro "keep_host" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The host side's terms, as functions of the edge-index argument -/

/-- The sources, then the nodes themselves (the self loops). -/
def srcVec (a1 : IVec S2x800000 32) : IVec S850000 32 :=
  concatenate S850000 0 [⟨S800000, shapeCast S800000 (extractStridedSlice S1x800000 ![0, 0] a1 slices_S2x800000_S1x800000_0_0)
    shapeCasts_S1x800000_S800000⟩, ⟨S50000, iotaInDim S50000 32 0⟩] concatenates_S800000_S50000_S850000_d0

/-- The destinations, then the nodes themselves. -/
def dstVec (a1 : IVec S2x800000 32) : IVec S850000 32 :=
  concatenate S850000 0 [⟨S800000, shapeCast S800000 (extractStridedSlice S1x800000 ![1, 0] a1 slices_S2x800000_S1x800000_1_0)
    shapeCasts_S1x800000_S800000⟩, ⟨S50000, iotaInDim S50000 32 0⟩] concatenates_S800000_S50000_S850000_d0

/-- The destinations as a column: the index operand of every scatter-add. -/
def dstCol (a1 : IVec S2x800000 32) : IVec S850000x1 32 :=
  broadcastInDim S850000x1 ![0] bcast_S850000_S850000x1_0 (dstVec a1)

/-- The sources with negative entries wrapped, as a column: the index operand of every gather. -/
def srcwCol (a1 : IVec S2x800000 32) : IVec S850000x1 32 :=
  broadcastInDim S850000x1 ![0] bcast_S850000_S850000x1_0
    (select (cmpi .slt (srcVec a1) (broadcastInDim S850000 ![] bcast_S_S850000 (constantI S_ 32 0#32)))
      (addi (srcVec a1) (broadcastInDim S850000 ![] bcast_S_S850000 (constantI S_ 32 50000#32))) (srcVec a1))

/-- The degree: ones scatter-added at the destinations. -/
def degVec (a1 : IVec S2x800000 32) : FVec Ideal S50000 .f32 :=
  Host.scatterAdd scatter_S50000_S850000x1_S850000_n_0_0_1
    (broadcastInDim S50000 ![] bcast_S_S50000 (constant S_ .f32 0x00000000#32)) (dstCol a1)
    (broadcastInDim S850000 ![] bcast_S_S850000 (constant S_ .f32 0x3F800000#32))

/-- The per-node factor: the inverse square root of a positive degree, zero elsewhere. -/
def facVec (a1 : IVec S2x800000 32) : FVec Ideal S50000 .f32 :=
  select (cmpf .ogt (degVec a1) (broadcastInDim S50000 ![] bcast_S_S50000 (constant S_ .f32 0x00000000#32)))
    (Host.rsqrt (degVec a1)) (broadcastInDim S50000 ![] bcast_S_S50000 (id (constant S_ .f32 0x00000000#32)))

/-- The factor as a column, the operand every region reads. -/
def facCol (a1 : IVec S2x800000 32) : FVec Ideal S50000x1 .f32 :=
  broadcastInDim S50000x1 ![0] bcast_S50000_S50000x1_0 (facVec a1)

/-- Gather the rows of `h` along the wrapped sources and scatter-add them at the destinations, 256 columns. -/
def agg256 (h : FVec Ideal S50000x256 .bf16) (a1 : IVec S2x800000 32) : FVec Ideal S50000x256 .f32 :=
  Host.scatterAdd scatter_S50000x256_S850000x1_S850000x256_1_0_0_1
    (broadcastInDim S50000x256 ![] bcast_S_S50000x256 (constant S_ .f32 0x00000000#32)) (dstCol a1)
    (extf .f32 (Host.gather gather_S50000x256_S850000x1_S850000x256_1_0_n_n_0_1_1256 h (srcwCol a1)) bitsLt_bf16_f32)

/-- The same, 128 columns. -/
def agg128 (h : FVec Ideal S50000x128 .bf16) (a1 : IVec S2x800000 32) : FVec Ideal S50000x128 .f32 :=
  Host.scatterAdd scatter_S50000x128_S850000x1_S850000x128_1_0_0_1
    (broadcastInDim S50000x128 ![] bcast_S_S50000x128 (constant S_ .f32 0x00000000#32)) (dstCol a1)
    (extf .f32 (Host.gather gather_S50000x128_S850000x1_S850000x128_1_0_n_n_0_1_1128 h (srcwCol a1)) bitsLt_bf16_f32)

end Cert.KernelIdeal.Through

end
-- ==== Proof.LibRowGather.lean ====
/-
  Row gathers and row scatters read at an index.

  `x[idx]` of a matrix `x : [N, F]` (or a vector `x : [N]`) at a column of integers `idx : [E, 1]` is a gather whose
  result row `e` is row `clamp (idx e)` of the operand: the start index is read signed, a negative one becomes `0`, and
  it is cut at `N - 1`. The matrix form and the vector form clamp in the same way, so the row a matrix gather reads is the
  entry a vector gather with the same indices reads.  A scatter of rows `u : [E, F]` into `[N, F]` at such a column
  sends update `(e, f)` to `(idx e, f)` when `0 ≤ idx e < N`, and drops it otherwise: nothing is clamped there.
-/
import Idealize.ShloMosaic.PureOps.ShapeOps
import Idealize.ShloMosaic.Lib.ValueIdx

noncomputable section

namespace Cert.RowIndexing

open Idealize.ShloMosaic Idealize.ShloMosaic.ValueIdx

/-- The dimension numbers of `x[idx]` for a matrix `x : [N, F]` and a column of indices `[E, 1]`. -/
abbrev rowGatherDims (N E F : Nat)
    (wf : GatherDims.WF (⟨2, ![N, F]⟩ : Shape) ⟨2, ![E, 1]⟩ ⟨2, ![E, F]⟩ [1] [0] [] [0] [] 1 ![1, F]) :
    GatherDims (⟨2, ![N, F]⟩ : Shape) ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x[idx]` for a vector `x : [N]` and a column of indices `[E, 1]`. -/
abbrev vecGatherDims (N E : Nat)
    (wf : GatherDims.WF (⟨1, ![N]⟩ : Shape) ⟨2, ![E, 1]⟩ ⟨1, ![E]⟩ [] [0] [] [0] [] 1 ![1]) :
    GatherDims (⟨1, ![N]⟩ : Shape) ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The row an index column selects at position `e`: the entry read signed, cut to `[0, N - 1]`. -/
def clampRow {N E w : Nat} (hN : 0 < N) (idx : IVec (⟨2, ![E, 1]⟩ : Shape) w) (e : Fin E) : Fin N :=
  ⟨min (idx (ix2 e (0 : Fin 1))).toInt.toNat (N - 1), by omega⟩

/-- The operand index a matrix gather reads at `(e, f)`: row `clampRow idx e`, column `f`. -/
theorem rowGather_operandIdx {N E F w : Nat} (hN : 0 < N) (wf)
    (idx : IVec (⟨2, ![E, 1]⟩ : Shape) w) (e : Fin E) (f : Fin F) :
    (rowGatherDims N E F wf).operandIdx (ix2 e f) idx = ix2 (clampRow hN idx e) f := by
  funext a
  refine Fin.ext ?_
  have hsi : ∀ c, (rowGatherDims N E F wf).siIdx (ix2 e f) c = ix2 e (0 : Fin 1) := by
    intro c
    funext b; refine Fin.ext ?_
    match b with
    | ⟨0, _⟩ => rfl
    | ⟨1, _⟩ => show c.val = 0; have := c.isLt; exact Nat.lt_one_iff.mp this
  match a with
  | ⟨0, h0⟩ =>
    show (rowGatherDims N E F wf).start (ix2 e f) idx ⟨0, h0⟩ + (rowGatherDims N E F wf).batchCoord (ix2 e f) ⟨0, h0⟩
      + (rowGatherDims N E F wf).offCoord (ix2 e f) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGatherDims N E F wf).startIndexMap from List.mem_singleton.mpr rfl)]
    rw [hsi]
    rfl
  | ⟨1, h1⟩ =>
    show (rowGatherDims N E F wf).start (ix2 e f) idx ⟨1, h1⟩ + (rowGatherDims N E F wf).batchCoord (ix2 e f) ⟨1, h1⟩
      + (rowGatherDims N E F wf).offCoord (ix2 e f) ⟨1, h1⟩ = _
    rw [GatherDims.batchCoord_eq_zero _ _ _ List.not_mem_nil]
    unfold GatherDims.start
    rw [dif_neg (show ¬ (⟨1, h1⟩ : Fin 2) ∈ (rowGatherDims N E F wf).startIndexMap from
      fun h => absurd (congrArg Fin.val (List.mem_singleton.mp h)) Nat.one_ne_zero)]
    simp only [Nat.add_zero, Nat.zero_add]
    rfl

/-- A matrix gather at `(e, f)` reads row `clampRow idx e`, column `f`. -/
theorem rowGather_apply {N E F w : Nat} {α : Type} (hN : 0 < N) (wf)
    (x : (⟨2, ![N, F]⟩ : Shape).Idx → α) (idx : IVec (⟨2, ![E, 1]⟩ : Shape) w) (e : Fin E) (f : Fin F) :
    Host.gather (rowGatherDims N E F wf) x idx (ix2 e f) = x (ix2 (clampRow hN idx e) f) :=
  congrArg x (rowGather_operandIdx hN wf idx e f)

/-- The operand index a vector gather reads at `e`: entry `clampRow idx e`. -/
theorem vecGather_operandIdx {N E w : Nat} (hN : 0 < N) (wf)
    (idx : IVec (⟨2, ![E, 1]⟩ : Shape) w) (e : Fin E) :
    (vecGatherDims N E wf).operandIdx (ix1 e) idx = ix1 (clampRow hN idx e) := by
  funext a
  obtain rfl : a = 0 := Subsingleton.elim _ _
  refine Fin.ext ?_
  have hsi : ∀ c, (vecGatherDims N E wf).siIdx (ix1 e) c = ix2 e (0 : Fin 1) := by
    intro c
    funext b; refine Fin.ext ?_
    match b with
    | ⟨0, _⟩ => rfl
    | ⟨1, _⟩ => show c.val = 0; have := c.isLt; exact Nat.lt_one_iff.mp this
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  rw [hsi]
  rfl

/-- A vector gather at `e` reads entry `clampRow idx e`. -/
theorem vecGather_apply {N E w : Nat} {α : Type} (hN : 0 < N) (wf)
    (x : (⟨1, ![N]⟩ : Shape).Idx → α) (idx : IVec (⟨2, ![E, 1]⟩ : Shape) w) (e : Fin E) :
    Host.gather (vecGatherDims N E wf) x idx (ix1 e) = x (ix1 (clampRow hN idx e)) :=
  congrArg x (vecGather_operandIdx hN wf idx e)

/-- The dimension numbers of a scatter of rows `[E, F]` into `[N, F]` at a column of indices `[E, 1]`. -/
abbrev rowScatterDims (N E F : Nat)
    (wf : ScatterDims.WF (⟨2, ![N, F]⟩ : Shape) ⟨2, ![E, 1]⟩ ⟨2, ![E, F]⟩ [1] [0] [0] 1) :
    ScatterDims (⟨2, ![N, F]⟩ : Shape) ⟨2, ![E, 1]⟩ ⟨2, ![E, F]⟩ where
  updateWindowDims := [1]
  insertedWindowDims := [0]
  scatterDimsToOperandDims := [0]
  indexVectorDim := 1
  wf := wf

/-- Where update row `e` lands, when it lands: the row its index names, read signed and NOT clamped. -/
theorem rowScatter_row {N E F w : Nat} (wf) (idx : IVec (⟨2, ![E, 1]⟩ : Shape) w) (j : (⟨2, ![E, F]⟩ : Shape).Idx)
    (i : (⟨2, ![N, F]⟩ : Shape).Idx) (h : (rowScatterDims N E F wf).resultIdx? j idx = some i) :
    (idx (ix2 (j 0) (0 : Fin 1))).toInt = ((i 0).val : Int) := by
  unfold ScatterDims.resultIdx? at h
  split at h
  · rename_i hall
    have hi := Option.some.inj h
    have h0 := congrArg (fun k : (⟨2, ![N, F]⟩ : Shape).Idx => (k 0).val) hi
    simp only at h0
    have hw : (rowScatterDims N E F wf).window j 0 = 0 := by
      unfold ScatterDims.window
      rw [dif_neg (fun hk => by
        have hk' : (0 : Fin 2) ∈ (List.finRange 2).filter (fun a : Fin 2 => a ∉ [(0 : Fin 2)]) := hk
        revert hk'; decide)]
    have hs : (rowScatterDims N E F wf).start j idx 0 = (idx (ix2 (j 0) (0 : Fin 1))).toInt := by
      unfold ScatterDims.start
      rw [dif_pos (show (0 : Fin 2) ∈ (rowScatterDims N E F wf).scatterDimsToOperandDims from List.mem_singleton.mpr rfl)]
      congr 2
      funext b; refine Fin.ext ?_
      match b with
      | ⟨0, _⟩ => rfl
      | ⟨1, _⟩ => rfl
    have hr := hall 0
    rw [hw, hs] at hr
    rw [hw, hs] at h0
    omega
  · exact absurd h (by simp)

end Cert.RowIndexing

end
-- ==== Proof.LibGcnLayer.lean ====
/-
  The algebra of one graph-convolution layer with symmetric normalisation, over the extended reals.

  With `D` the per-node factor (the inverse square root of the degree), `h` the node features after the dense product,
  and an edge list (source row `s e`, destination row `t e`), the reference sums `h (s e) · (D (s e) · D (t e))` over the
  edges that land on node `i` and adds the self loop `h i · (D i · D i)`.  The kernel scales the features once,
  `hs = h · D`, sums `hs (s e)` over the same edges, adds `hs i`, and multiplies the total by `D i`.  The two agree because
  every edge in the sum has `D (t e) = D i`, multiplication distributes over a finite sum of REAL numbers, and products
  of reals commute; on the extended reals distributivity can fail at the infinities, so every quantity is first shown
  to be a real number.
-/
import Idealize.ShloMosaic.PureOps.Ideal

noncomputable section

namespace Cert.GcnAlgebra

open Idealize.ShloMosaic

/-- An extended real that is a real number. -/
def IsFin (x : EReal) : Prop := ∃ r : ℝ, x = (r : EReal)

theorem IsFin.coe (r : ℝ) : IsFin (r : EReal) := ⟨r, rfl⟩
theorem IsFin.zero : IsFin 0 := ⟨0, rfl⟩
theorem IsFin.one : IsFin 1 := ⟨1, rfl⟩
theorem IsFin.add {x y : EReal} (hx : IsFin x) (hy : IsFin y) : IsFin (x + y) := by
  obtain ⟨a, rfl⟩ := hx; obtain ⟨b, rfl⟩ := hy; exact ⟨a + b, (EReal.coe_add a b).symm⟩
theorem IsFin.mul {x y : EReal} (hx : IsFin x) (hy : IsFin y) : IsFin (x * y) := by
  obtain ⟨a, rfl⟩ := hx; obtain ⟨b, rfl⟩ := hy; exact ⟨a * b, (EReal.coe_mul a b).symm⟩
theorem IsFin.max {x y : EReal} (hx : IsFin x) (hy : IsFin y) : IsFin (max x y) := by
  rcases max_choice x y with h | h <;> rw [h] <;> assumption

/-- A finite sum of coerced reals is the coerced sum. -/
theorem coe_sum {ι : Type} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

theorem IsFin.sum {ι : Type} (s : Finset ι) (f : ι → EReal) (h : ∀ j, IsFin (f j)) : IsFin (∑ j ∈ s, f j) := by
  choose g hg using h
  exact ⟨∑ j ∈ s, g j, by rw [← coe_sum]; exact Finset.sum_congr rfl fun j _ => hg j⟩

/-- The inverse square root of a positive real is a real. -/
theorem IsFin.rsqrt_of_pos {r : ℝ} (hr : 0 < r) : IsFin (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- THE LAYER IDENTITY on one output entry.  `S` is the set of (edge, column) slots landing on the entry; `a j` the
    feature the slot gathers, `p j` the source node's factor, `q j` the destination node's factor as the reference
    gathers it, which on `S` is the entry's own factor `D`; `H` the entry's own feature. -/
theorem fold_scale {T : Type} (S : Finset T) (a p q : T → EReal) (H D : EReal)
    (ha : ∀ j, IsFin (a j)) (hp : ∀ j, IsFin (p j)) (hH : IsFin H) (hD : IsFin D)
    (hq : ∀ j ∈ S, q j = D) :
    D * ((0 + ∑ j ∈ S, a j * p j) + H * D) = (0 + ∑ j ∈ S, a j * (p j * q j)) + H * (D * D) := by
  obtain ⟨d, rfl⟩ := hD
  obtain ⟨h, rfl⟩ := hH
  choose a' ha' using ha
  choose p' hp' using hp
  have e1 : ∑ j ∈ S, a j * (p j * q j) = ∑ j ∈ S, ((a' j * (p' j * d) : ℝ) : EReal) :=
    Finset.sum_congr rfl fun j hj => by rw [hq j hj, ha', hp', EReal.coe_mul, EReal.coe_mul]
  have e2 : ∑ j ∈ S, a j * p j = ∑ j ∈ S, ((a' j * p' j : ℝ) : EReal) :=
    Finset.sum_congr rfl fun j _ => by rw [ha', hp', EReal.coe_mul]
  rw [e1, e2, coe_sum, coe_sum, zero_add, zero_add, ← EReal.coe_mul, ← EReal.coe_add, ← EReal.coe_mul,
    ← EReal.coe_mul, ← EReal.coe_mul, ← EReal.coe_add]
  refine congrArg _ ?_
  rw [mul_add, Finset.mul_sum]
  congr 1
  · exact Finset.sum_congr rfl fun j _ => by ring
  · ring

end Cert.GcnAlgebra

end
-- ==== Proof.LibGcnEdgeConv.lean ====
/-
  One normalised graph convolution whose edge list already contains the self loops, in its two arrangements, over the
  extended reals, for any numbers of nodes `N`, edges `E` and features `F`.

  `h : [N, F]` are node features, `D : [N]` a per-node factor, and three columns of `E` node indices describe the edges:
  `srcw` the sources (negative entries wrapped), `dst` the destinations as given, `dstw` the destinations wrapped.
  * Edge-scaled (`convR`): gather `h` along `srcw`, multiply each gathered row by `D[srcw] · D[dstw]`, scatter-add the rows
    at `dst` into zeros.
  * Node-scaled (`convK`): gather the pre-scaled features `h ⊙ D` along `srcw`, scatter-add at `dst`, scale each node's
    total by `D`.
  A row lands at node `i` only when its destination IS `i`, a valid row, where wrapping and clamping leave it alone
  (the hypothesis `hwrap`), so every summand's destination factor is `D i`; the rest moves the real factor `D i` across a
  finite sum of real numbers. On the extended reals that can fail at the infinities, hence the hypotheses that the
  features and the factor are real. Also: the edge-scaled convolution of real data is real (to feed a next layer), and
  the host's accumulating scatter into an array of zeros is `scat`.
-/
import Idealize.ShloMosaic.PureOps.Ideal
import Idealize.ShloMosaic.PureOps.Ideal.Laws
import Idealize.ShloMosaic.Lib.ValueIdx
import proofs.«107428_j55207509623327_2_alg».proof.Proof.LibRowGather
import proofs.«107428_j55207509623327_2_alg».proof.Proof.LibGcnLayer

noncomputable section

namespace Cert.TwoLayer

open Idealize.ShloMosaic Idealize.ShloMosaic.ValueIdx Cert.RowIndexing Cert.GcnAlgebra

/-- A matrix, a vector and a column of 32-bit indices, as functions of an index. -/
abbrev Mat (a b : Nat) := (⟨2, ![a, b]⟩ : Shape).Idx → EReal
abbrev Vc (a : Nat) := (⟨1, ![a]⟩ : Shape).Idx → EReal
abbrev ICol (E : Nat) := IVec (⟨2, ![E, 1]⟩ : Shape) 32

/-- The dense product: entry `(r, q)` is the sum over the shared axis. -/
def dense {a n b : Nat} (A : Mat a n) (B : Mat n b) : Mat a b :=
  fun i => ∑ c : Fin n, A (ix2 (i 0) c) * B (ix2 c (i 1))

/-- The column `[N, 1]` that repeats a vector `[N]`. -/
def colOf {N : Nat} (Dv : Vc N) : Mat N 1 := fun j => Dv (ix1 (j 0))

section Conv

variable {N E : Nat} (hN : 0 < N) {F : Nat}
  (wfG : GatherDims.WF (⟨2, ![N, F]⟩ : Shape) ⟨2, ![E, 1]⟩ ⟨2, ![E, F]⟩ [1] [0] [] [0] [] 1 ![1, F])
  (wfV : GatherDims.WF (⟨1, ![N]⟩ : Shape) ⟨2, ![E, 1]⟩ ⟨1, ![E]⟩ [] [0] [] [0] [] 1 ![1])
  (wfS : ScatterDims.WF (⟨2, ![N, F]⟩ : Shape) ⟨2, ![E, 1]⟩ ⟨2, ![E, F]⟩ [1] [0] [0] 1)

/-- Rows `u : [E, F]` scatter-added at the column `dst` into zeros. -/
def scat (dst : ICol E) (u : Mat E F) : Mat N F :=
  Ideal.hostScatterAdd (rowScatterDims N E F wfS) (fun _ => (0 : EReal)) dst u

/-- The node-scaled arrangement of one convolution. -/
def convK (Dv : Vc N) (srcw dst : ICol E) (h : Mat N F) : Mat N F :=
  fun i => scat wfS dst (Host.gather (rowGatherDims N E F wfG) (fun k => h k * Dv (ix1 (k 0))) srcw) i * Dv (ix1 (i 0))

/-- The edge-scaled arrangement. -/
def convR (Dv : Vc N) (srcw dst dstw : ICol E) (h : Mat N F) : Mat N F :=
  scat wfS dst (fun j => Host.gather (rowGatherDims N E F wfG) h srcw j
    * (Host.gather (vecGatherDims N E wfV) Dv srcw (ix1 (j 0)) * Host.gather (vecGatherDims N E wfV) Dv dstw (ix1 (j 0))))

include hN

/-- The edge-scaled convolution of real features by a real factor is real. -/
theorem convR_isFin (Dv : Vc N) (srcw dst dstw : ICol E) (h : Mat N F)
    (hh : ∀ k, IsFin (h k)) (hD : ∀ k, IsFin (Dv k)) (i : (⟨2, ![N, F]⟩ : Shape).Idx) :
    IsFin (convR wfG wfV wfS Dv srcw dst dstw h i) := by
  unfold convR scat Ideal.hostScatterAdd
  refine IsFin.add IsFin.zero (IsFin.sum _ _ fun j => ?_)
  exact IsFin.mul (hh _) (IsFin.mul (hD _) (hD _))

/-- A gathered row of the node-scaled features is the gathered row of the features times the gathered factor. -/
theorem gather_scaled (Dv : Vc N) (srcw : ICol E) (h : Mat N F) (e : Fin E) (f : Fin F) :
    Host.gather (rowGatherDims N E F wfG) (fun k => h k * Dv (ix1 (k 0))) srcw (ix2 e f)
      = Host.gather (rowGatherDims N E F wfG) h srcw (ix2 e f) * Host.gather (vecGatherDims N E wfV) Dv srcw (ix1 e) := by
  rw [rowGather_apply hN, rowGather_apply hN, vecGather_apply hN]
  rfl

/-- THE CONVOLUTION in its two arrangements is one function, for real features and a real factor. -/
theorem conv_eq (Dv : Vc N) (srcw dst dstw : ICol E) (h : Mat N F)
    (hh : ∀ k, IsFin (h k)) (hD : ∀ k, IsFin (Dv k))
    (hwrap : ∀ (e : Fin E) (n : Fin N), (dst (ix2 e (0 : Fin 1))).toInt = (n.val : Int) → clampRow hN dstw e = n) :
    convK wfG wfS Dv srcw dst h = convR wfG wfV wfS Dv srcw dst dstw h := by
  funext i
  obtain ⟨r, q, rfl⟩ : ∃ (r : Fin N) (q : Fin F), i = ix2 r q := ⟨i 0, i 1, eq_ix2 i⟩
  unfold convK convR scat Ideal.hostScatterAdd
  have hL : ∀ j : (⟨2, ![E, F]⟩ : Shape).Idx,
      Host.gather (rowGatherDims N E F wfG) (fun k => h k * Dv (ix1 (k 0))) srcw j
        = Host.gather (rowGatherDims N E F wfG) h srcw j * Host.gather (vecGatherDims N E wfV) Dv srcw (ix1 (j 0)) := by
    intro j
    obtain ⟨e, f, rfl⟩ : ∃ (e : Fin E) (f : Fin F), j = ix2 e f := ⟨j 0, j 1, eq_ix2 j⟩
    exact gather_scaled hN wfG wfV Dv srcw h e f
  simp only [hL]
  have key := fold_scale (Finset.univ.filter (fun j => (rowScatterDims N E F wfS).resultIdx? j dst = some (ix2 r q)))
    (fun j => Host.gather (rowGatherDims N E F wfG) h srcw j)
    (fun j => Host.gather (vecGatherDims N E wfV) Dv srcw (ix1 (j 0)))
    (fun j => Host.gather (vecGatherDims N E wfV) Dv dstw (ix1 (j 0))) 0 (Dv (ix1 r))
    (fun j => hh _) (fun j => hD _) IsFin.zero (hD _) (by
      intro j hj
      have hres := (Finset.mem_filter.mp hj).2
      obtain ⟨e, f, rfl⟩ : ∃ (e : Fin E) (f : Fin F), j = ix2 e f := ⟨j 0, j 1, eq_ix2 j⟩
      have hrow := rowScatter_row wfS dst (ix2 e f) (ix2 r q) hres
      show Host.gather (vecGatherDims N E wfV) Dv dstw (ix1 e) = _
      rw [vecGather_apply hN, hwrap e r hrow])
  rw [zero_mul, zero_mul, add_zero, add_zero] at key
  rw [mul_comm]
  exact key

end Conv

/-- The host's accumulating scatter into an array of zeros is `scat`, for any extents. -/
theorem hostScatter_zeros {N E F : Nat} (wfS) (z : Mat N F) (hz : ∀ i, z i = 0) (dst : ICol E) (u : Mat E F) :
    Host.scatterAdd (F := Ideal) (φ := .f32) (rowScatterDims N E F wfS) z dst u = scat wfS dst u := by
  funext i
  unfold scat
  show z i + _ = (0 : EReal) + _
  rw [hz i]

end Cert.TwoLayer

end
-- ==== Proof.Spec.lean ====
/-
  Two normalised graph-convolution layers and a dense head, over the extended reals.

  Node features `x : [N, 512]`, a per-node factor `D : [N]` (the inverse square root of the degree), an edge list given
  as three columns of `E` node indices (`srcw` the sources with negative entries wrapped, `dst` the destinations as
  given, `dstw` the destinations wrapped).  One convolution of features `h : [N, F]` is written in two ways.
  * Edge-scaled: gather `h` along `srcw`, multiply each gathered row by the edge coefficient `D[srcw] · D[dstw]`,
    scatter-add the rows at `dst` into zeros.
  * Node-scaled: scale the features once per node, `h ⊙ D`, gather those along `srcw`, scatter-add at `dst`, and scale
    each node's total by `D` again.
  A row lands at node `i` only when its destination IS `i`, a valid row, where wrapping and clamping leave it alone, so
  the destination factor of every summand is `D i`; the two sums then differ by moving the real factor `D i` across a
  finite sum of real numbers.  On the extended reals that step can fail at the infinities, so the features and the
  factor are real numbers by hypothesis, and each layer's output is shown to be real before it feeds the next.
  The network is: dense product with `W1`, convolution, bias, maximum with zero; dense product with `W2`, convolution,
  bias, the leaky rectifier `y ↦ y` if `y ≥ 0` else `c · y`; dense product with `Wm`, bias.
-/
import Idealize.ShloMosaic.PureOps.Ideal
import Idealize.ShloMosaic.PureOps.Ideal.Laws
import Idealize.ShloMosaic.Lib.ValueIdx
import proofs.«107428_j55207509623327_2_alg».proof.Proof.LibGcnEdgeConv

noncomputable section

namespace Cert.TwoLayer

open Idealize.ShloMosaic Idealize.ShloMosaic.ValueIdx Cert.RowIndexing Cert.GcnAlgebra

/-- The literal zero both programs compare against, its value, and the two rectifiers. -/
theorem zero_isFin : IsFin (Ideal.ofBits .f32 0x00000000#32) := by rw [Ideal.ofBits_zero_f32]; exact IsFin.zero

def relu (y : EReal) : EReal := max y (Ideal.ofBits .f32 0x00000000#32)

def leaky (y : EReal) : EReal :=
  Scalar.select (FloatOps.cmpf (F := Ideal) (φ := .f32) .oge y (Ideal.ofBits .f32 0x00000000#32)) y
    (Ideal.ofBits .f32 0x3C23D70A#32 * y)

section Net

variable {N E : Nat} (hN : 0 < N)
  (wfG1 : GatherDims.WF (⟨2, ![N, 256]⟩ : Shape) ⟨2, ![E, 1]⟩ ⟨2, ![E, 256]⟩ [1] [0] [] [0] [] 1 ![1, 256])
  (wfG2 : GatherDims.WF (⟨2, ![N, 128]⟩ : Shape) ⟨2, ![E, 1]⟩ ⟨2, ![E, 128]⟩ [1] [0] [] [0] [] 1 ![1, 128])
  (wfV : GatherDims.WF (⟨1, ![N]⟩ : Shape) ⟨2, ![E, 1]⟩ ⟨1, ![E]⟩ [] [0] [] [0] [] 1 ![1])
  (wfS1 : ScatterDims.WF (⟨2, ![N, 256]⟩ : Shape) ⟨2, ![E, 1]⟩ ⟨2, ![E, 256]⟩ [1] [0] [0] 1)
  (wfS2 : ScatterDims.WF (⟨2, ![N, 128]⟩ : Shape) ⟨2, ![E, 1]⟩ ⟨2, ![E, 128]⟩ [1] [0] [0] 1)

/-- The network over a given pair of convolution operators. -/
def net (conv1 : Mat N 256 → Mat N 256) (conv2 : Mat N 128 → Mat N 128)
    (x : Mat N 512) (W1 : Mat 512 256) (b1 : Vc 256) (W2 : Mat 256 128) (b2 : Vc 128) (Wm : Mat 128 7) (bm : Vc 7) :
    Mat N 7 :=
  fun i => dense (fun k => leaky (conv2 (dense (fun k' => relu (conv1 (dense x W1) k' + b1 (ix1 (k' 1)))) W2) k
    + b2 (ix1 (k 1)))) Wm i + bm (ix1 (i 1))

/-- The three dense stages of the node-scaled arrangement, each a function of the arrays it is handed: the scaled
    first product; bias, rectifier, second product, scaled; bias, leaky rectifier, head product, bias. -/
def stage0 (x : Mat N 512) (W1 : Mat 512 256) (Dc : Mat N 1) : Mat N 256 :=
  fun k => dense x W1 k * Dc (ix2 (k 0) (0 : Fin 1))

def stage1 (agg : Mat N 256) (b1 : Vc 256) (Dc : Mat N 1) (W2 : Mat 256 128) : Mat N 128 :=
  fun k => dense (fun k' => relu (agg k' * Dc (ix2 (k' 0) (0 : Fin 1)) + b1 (ix1 (k' 1)))) W2 k * Dc (ix2 (k 0) (0 : Fin 1))

def stage2 (agg : Mat N 128) (b2 : Vc 128) (Dc : Mat N 1) (Wm : Mat 128 7) (bm : Vc 7) : Mat N 7 :=
  fun i => dense (fun k => leaky (agg k * Dc (ix2 (k 0) (0 : Fin 1)) + b2 (ix1 (k 1)))) Wm i + bm (ix1 (i 1))

/-- The node-scaled program: the three stages with a gather and a scatter-add between them. -/
def kerOut (Dv : Vc N) (srcw dst : ICol E)
    (x : Mat N 512) (W1 : Mat 512 256) (b1 : Vc 256) (W2 : Mat 256 128) (b2 : Vc 128) (Wm : Mat 128 7) (bm : Vc 7) :
    Mat N 7 :=
  stage2 (scat wfS2 dst (Host.gather (rowGatherDims N E 128 wfG2)
    (stage1 (scat wfS1 dst (Host.gather (rowGatherDims N E 256 wfG1) (stage0 x W1 (colOf Dv)) srcw)) b1 (colOf Dv) W2) srcw))
    b2 (colOf Dv) Wm bm

/-- It is the network over the node-scaled convolution. -/
theorem kerOut_eq_net (Dv : Vc N) (srcw dst : ICol E)
    (x : Mat N 512) (W1 : Mat 512 256) (b1 : Vc 256) (W2 : Mat 256 128) (b2 : Vc 128) (Wm : Mat 128 7) (bm : Vc 7) :
    kerOut wfG1 wfG2 wfS1 wfS2 Dv srcw dst x W1 b1 W2 b2 Wm bm
      = net (convK wfG1 wfS1 Dv srcw dst) (convK wfG2 wfS2 Dv srcw dst) x W1 b1 W2 b2 Wm bm := rfl

include hN

/-- THE TWO NETWORKS are one function of real inputs: layer by layer, each convolution's two arrangements agree on real
    features, and each layer's output is real again. -/
theorem net_eq (Dv : Vc N) (srcw dst dstw : ICol E)
    (x : Mat N 512) (W1 : Mat 512 256) (b1 : Vc 256) (W2 : Mat 256 128) (b2 : Vc 128) (Wm : Mat 128 7) (bm : Vc 7)
    (hx : ∀ k, IsFin (x k)) (hW1 : ∀ k, IsFin (W1 k)) (hb1 : ∀ k, IsFin (b1 k)) (hW2 : ∀ k, IsFin (W2 k))
    (hD : ∀ k, IsFin (Dv k))
    (hwrap : ∀ (e : Fin E) (n : Fin N), (dst (ix2 e (0 : Fin 1))).toInt = (n.val : Int) → clampRow hN dstw e = n) :
    net (convK wfG1 wfS1 Dv srcw dst) (convK wfG2 wfS2 Dv srcw dst) x W1 b1 W2 b2 Wm bm
      = net (convR wfG1 wfV wfS1 Dv srcw dst dstw) (convR wfG2 wfV wfS2 Dv srcw dst dstw) x W1 b1 W2 b2 Wm bm := by
  have h1fin : ∀ k, IsFin (dense x W1 k) := fun k => IsFin.sum _ _ fun c => (hx _).mul (hW1 _)
  have e1 := conv_eq hN wfG1 wfV wfS1 Dv srcw dst dstw (dense x W1) h1fin hD hwrap
  unfold net
  rw [e1]
  have a1fin : ∀ k', IsFin (relu (convR wfG1 wfV wfS1 Dv srcw dst dstw (dense x W1) k' + b1 (ix1 (k' 1)))) :=
    fun k' => IsFin.max ((convR_isFin hN wfG1 wfV wfS1 Dv srcw dst dstw _ h1fin hD k').add (hb1 _)) zero_isFin
  have h2fin : ∀ k, IsFin (dense (fun k' => relu (convR wfG1 wfV wfS1 Dv srcw dst dstw (dense x W1) k' + b1 (ix1 (k' 1)))) W2 k) :=
    fun k => IsFin.sum _ _ fun c => (a1fin _).mul (hW2 _)
  rw [conv_eq hN wfG2 wfV wfS2 Dv srcw dst dstw _ h2fin hD hwrap]

end Net

end Cert.TwoLayer

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibRowOps.lean ====
/-
  Row-wise reductions and the "keepdims" layouts around them, read at an index.

  A reduction of an `a × b` matrix along its second axis gives one value per row, and a kernel then puts that value back
  beside every entry of the row: the `[a]` vector of row values is cast to a column `[a, 1]` and the column is broadcast
  to `[a, b]`. Read at `(p, c)` the result is the row value of row `p`. This file states each step at an index built by
  `ValueIdx.ix1` / `ix2`, for any extents:
  * the cast `[a] → [a, 1]` and the broadcast `[a, 1] → [a, b]`;
  * the source index a one-axis reduction inserts on the dropped axis, `(p, k)`;
  * on the extended reals, a row's maximum as the fold of `max` over the row and a row's sum as the sum over the row —
    for a vector unit's `multi_reduction` and for a host `reduce` alike, so that the two meet in one expression.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing a matrix along its second axis: the source index over row `p` with `k` inserted is `(p, k)`. -/
theorem lift_ix1 {a b : ℕ} (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- A vector unit's maximum along the rows' axis, at row `p`, on the extended reals: the fold of `max` over the row,
    from the accumulator's value. -/
theorem multiReduction_max_row {a b : ℕ} (v : FVec Ideal (⟨2, ![a, b]⟩ : Shape) .f32) (acc : BitVec 32)
    (h : (⟨2, ![a, b]⟩ : Shape).Reduces [(1 : Fin 2)] ⟨1, ![a]⟩) (hφ : FKind.Formats .f32)
    (hacc : acc = FKind.maximumf.neutral .f32 hφ) (p : Fin a) :
    multiReduction .maximumf [(1 : Fin 2)] ⟨1, ![a]⟩ v acc h hφ hacc (ix1 p)
      = (Finset.univ : Finset (Fin b)).fold max (Ideal.ofBits .f32 acc) (fun k => v (ix2 p k)) := by
  refine (Ideal.multiReduction_maximumf_single v acc h hφ hacc (ix1 p)).trans ?_
  have e : (v ∘ h.lift (ix1 p)) = fun k : Fin b => v (ix2 p k) := funext fun k => congrArg v (lift_ix1 h p k)
  exact congrArg (fun f : Fin b → EReal => (Finset.univ : Finset (Fin b)).fold max (Ideal.ofBits .f32 acc) f) e

/-- A vector unit's sum along the rows' axis, at row `p`, on the extended reals: the sum over the row. -/
theorem multiReduction_add_row {a b : ℕ} (v : FVec Ideal (⟨2, ![a, b]⟩ : Shape) .f32) (acc : BitVec 32)
    (h : (⟨2, ![a, b]⟩ : Shape).Reduces [(1 : Fin 2)] ⟨1, ![a]⟩) (hφ : FKind.Formats .f32)
    (hacc : acc = FKind.add.neutral .f32 hφ) (p : Fin a) :
    multiReduction .add [(1 : Fin 2)] ⟨1, ![a]⟩ v acc h hφ hacc (ix1 p) = ∑ k : Fin b, v (ix2 p k) :=
  (Ideal.multiReduction_add_single v acc h hφ hacc (ix1 p)).trans
    (Finset.sum_congr rfl fun k _ => congrArg v (lift_ix1 h p k))

/-- A host `reduce` by `max` along the rows' axis, at row `p`, on the extended reals: the fold of `max` over the row,
    from the initial value. -/
theorem hostReduce_max_row {a b : ℕ} {u : Shape} (x : (⟨2, ![a, b]⟩ : Shape).Idx → EReal) (init : u.Idx → EReal)
    (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  refine (Host.reduce_eq_fold_single (FloatOps.maximumf (F := Ideal) (φ := .f32)) x init h' h hu (ix1 p)).trans ?_
  have e : (x ∘ h.lift (ix1 p)) = fun k : Fin b => x (ix2 p k) := funext fun k => congrArg x (lift_ix1 h p k)
  exact congrArg (fun f : Fin b → EReal => (Finset.univ : Finset (Fin b)).fold max (init (Shape.Idx.first hu)) f) e

/-- A host sum along the rows' axis, at row `p`, on the extended reals: the initial value plus the sum over the row. -/
theorem hostReduceAdd_row {a b : ℕ} (x : (⟨2, ![a, b]⟩ : Shape).Idx → EReal) (init : EReal)
    (h' : (⟨2, ![a, b]⟩ : Shape).ReducesTo [(1 : Fin 2)] ⟨1, ![a]⟩)
    (h : (⟨2, ![a, b]⟩ : Shape).Reduces [(1 : Fin 2)] ⟨1, ![a]⟩) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_ix1 h p k)))

end Cert.RowOps

end
-- ==== Proof.Payload.lean ====
/-
  The three kernel bodies' stored values, read at an index, over the extended reals.

  Each body loads its blocks whole, computes, and stores one block of 2000 rows. With changes of float format the identity
  and every matrix product accumulated into zeros a plain sum over the shared axis:
  * the first body stores `(Σ_c x(p,c) · W(c,q)) · d(p)`, `d` the block of the per-node factor, a column;
  * the second stores `(Σ_c max(a(p,c) · d(p) + b(c), 0) · W(c,q)) · d(p)`;
  * the third stores `Σ_c leaky(a(p,c) · d(p) + b(c)) · W(c,q) + bm(q)`.
  The bias vector `[F]` is laid out as a row `[1, F]` and repeated down the block; the factor column `[2000, 1]` is
  repeated across the block.
-/
import proofs.«107428_j55207509623327_2_alg».proof.Proof.Gen.KernelIdeal.Skeleton
import proofs.«107428_j55207509623327_2_alg».proof.Proof.Spec
import proofs.«107428_j55207509623327_2_alg».proof.Proof.LibPlainMatmul
import proofs.«107428_j55207509623327_2_alg».proof.Proof.LibRowOps
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.TwoLayer Cert.PointConv
  Cert.RowOps

/-- The factor column repeated across a block of width `b`, at `(p, q)`: the column's entry of row `p`. -/
theorem factor_apply {b : ℕ} (x2 : (⟨2, ![2000, 1]⟩ : Shape).Idx → EReal) (h1 : (⟨2, ![2000, 1]⟩ : Shape).ShapeCasts ⟨2, ![2000, 1]⟩)
    (h2 : (⟨2, ![2000, 1]⟩ : Shape).Broadcasts ⟨2, ![2000, b]⟩) (p : Fin 2000) (q : Fin b) :
    broadcastTo ⟨2, ![2000, b]⟩ (shapeCast ⟨2, ![2000, 1]⟩ x2 h1) h2 (ix2 p q) = x2 (ix2 p (0 : Fin 1)) :=
  (broadcastTo_a1_ab_apply _ h2 p q).trans (congrFun (shapeCast_self x2 h1) _)

/-- The bias vector laid out as a row and repeated down a block, at `(p, c)`: the vector's entry `c`. -/
theorem bias_apply {a b : ℕ} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The first body's stored block at `(p, q)`. -/
theorem pay0_apply (x0 : Vec Ideal S2000x512 .f32) (x1 : Vec Ideal S512x256 .f32) (x2 : Vec Ideal S2000x1 .f32)
    (p : Fin 2000) (q : Fin 256) :
    k0_pay1 (F := Ideal) x0 x1 x2 (ix2 p q) = (∑ c : Fin 512, x0 (ix2 p c) * x1 (ix2 c q)) * x2 (ix2 p (0 : Fin 1)) := by
  unfold k0_pay1
  refine congrArg₂ (fun a b : EReal => a * b) ?_ ?_
  · exact plainMatmul_zero_apply (R := 2000) (n := 512) (k := 256) _ none x0 x1 p q
  · exact factor_apply x2 _ _ p q

/-- The second body's stored block at `(p, q)`. -/
theorem pay1_apply (v0 : Vec Ideal S2000x256 .f32) (v2 : Vec Ideal S2000x1 .f32) (v6 : Vec Ideal S256 .f32)
    (v13 : Vec Ideal S256x128 .f32) (v16 : Vec Ideal S2000x1 .f32) (p : Fin 2000) (q : Fin 128) :
    k1_pay1 (F := Ideal) v0 v2 v6 v13 v16 (ix2 p q)
      = (∑ c : Fin 256, relu (v0 (ix2 p c) * v2 (ix2 p (0 : Fin 1)) + v6 (ix1 c)) * v13 (ix2 c q)) * v16 (ix2 p (0 : Fin 1)) := by
  unfold k1_pay1
  refine congrArg₂ (fun a b : EReal => a * b) ?_ ?_
  · refine (plainMatmul_zero_apply (R := 2000) (n := 256) (k := 128) (φ₁ := .bf16) (φ₂ := .bf16) _ none _ _ p q).trans ?_
    refine Finset.sum_congr rfl fun c _ => congrArg (fun y : EReal => y * v13 (ix2 c q)) ?_
    refine congrArg (fun y : EReal => max y (Ideal.ofBits .f32 0x00000000#32)) ?_
    exact congrArg₂ (fun a b : EReal => a + b)
      (congrArg₂ (fun a b : EReal => a * b) (congrFun (shapeCast_self v0 _) _) (factor_apply v2 _ _ p c))
      (bias_apply v6 _ _ p c)
  · exact factor_apply v16 _ _ p q

/-- The leaky rectifier as the body spells it, on a vector whose entry at `i` is `y`. -/
theorem leaky_at {s : Shape} (Y : FVec Ideal s .f32) (i : s.Idx) (y : EReal) (hy : Y i = y) :
    (truncf .bf16 (select (cmpf .oge Y (broadcast s (Scalar.ofBits (F := Ideal) .f32 0x00000000#32))) Y
      (mulf (broadcast s (Scalar.ofBits (F := Ideal) .f32 0x3C23D70A#32)) Y)) bitsLt_bf16_f32 : FVec Ideal s .bf16) i = leaky y := by
  subst hy; rfl

/-- The third body's stored block at `(p, q)`. -/
theorem pay2_apply (v0 : Vec Ideal S2000x128 .f32) (v2 : Vec Ideal S2000x1 .f32) (v6 : Vec Ideal S128 .f32)
    (v16 : Vec Ideal S128x7 .f32) (v19 : Vec Ideal S7 .f32) (p : Fin 2000) (q : Fin 7) :
    k2_pay1 (F := Ideal) v0 v2 v6 v16 v19 (ix2 p q)
      = (∑ c : Fin 128, leaky (v0 (ix2 p c) * v2 (ix2 p (0 : Fin 1)) + v6 (ix1 c)) * v16 (ix2 c q)) + v19 (ix1 q) := by
  unfold k2_pay1
  refine congrArg₂ (fun a b : EReal => a + b) ?_ (bias_apply v19 _ _ p q)
  refine (plainMatmul_zero_apply (R := 2000) (n := 128) (k := 7) (φ₁ := .bf16) (φ₂ := .bf16) _ none _ _ p q).trans ?_
  refine Finset.sum_congr rfl fun c _ => congrArg (fun y : EReal => y * v16 (ix2 c q)) ?_
  exact leaky_at _ (ix2 p c) _ (congrArg₂ (fun a b : EReal => a + b)
    (congrArg₂ (fun a b : EReal => a * b) (congrFun (shapeCast_self v0 _) _) (factor_apply v2 _ _ p c))
    (bias_apply v6 _ _ p c))

end Cert.KernelIdeal.Body

end
-- ==== Proof.Region0.lean ====
/-
  The first region's output array after the region, as one function of the arrays the region finds.

  The grid has 25 points; point `t` handles rows `2000·t … 2000·t + 1999`: it fetches those rows of the features and of
  the factor column, the whole weight matrix, and writes back those rows of the output. So block `t` of every row-blocked
  window starts at row `2000·t`, the blocks of the output tile all 50000 rows, and entry `(r, q)` of the output array ends
  at `(Σ_c x(r,c) · W(c,q)) · d(r)`.
-/
import proofs.«107428_j55207509623327_2_alg».proof.Proof.Gen.KernelIdeal.Frame
import proofs.«107428_j55207509623327_2_alg».proof.Proof.Payload
import Idealize.ShloMosaic.Lib.Pipeline.Value

set_option maxRecDepth 16384

noncomputable section

namespace Cert.KernelIdeal.Blocks

open Cert.KernelIdeal Cert.KernelIdeal.Gen Cert.KernelIdeal.Body Idealize.ShloMosaic Idealize.ShloMosaic.TcCoe
  Idealize.ShloMosaic.ValueIdx Idealize.SL.Sem Cert.TwoLayer
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- Row `p` of block `t` is row `2000·t + p` of the array. -/
def rowOf (t : Fin 25) (p : Fin 2000) : Fin 50000 := ⟨t.val * 2000 + p.val, by have := t.isLt; have := p.isLt; omega⟩

/-- A point of the first region's grid, as a number below 25. -/
def pt0 (t : Fin cfg0.N) : Fin 25 := ⟨t.val, lt_of_lt_of_eq t.isLt N_0⟩

/-- The printed index maps of the first region, decided over its grid. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block `t` of the features, at `(p, k)`. -/
theorem blk0_0 (c : Dev nD) (t : Fin cfg0.N) (p : Fin 2000) (k : Fin 512) :
    iblk0 V c 0 t (ix2 p k) = V c main_arg0 (ix2 (rowOf (pt0 t) p) k) := by
  show V c main_arg0 (((cfg0.win 0).blk t).view.emb (ix2 p k)) = V c main_arg0 (ix2 (rowOf (pt0 t) p) k)
  refine congrArg (V c main_arg0) ?_
  obtain ⟨e0, e1, -⟩ := index_maps0 t
  funext a; apply Fin.ext
  match a with
  | ⟨0, _⟩ => show win0_0.index t (0 : Fin 2) * 2000 + 1 * p.val = t.val * 2000 + p.val; omega
  | ⟨1, _⟩ => show win0_0.index t (1 : Fin 2) * 512 + 1 * k.val = k.val; omega

/-- The weight matrix is fetched whole at every point. -/
theorem blk0_1 (c : Dev nD) (t : Fin cfg0.N) (k : Fin 512) (q : Fin 256) :
    iblk0 V c 1 t (ix2 k q) = V c main_arg2 (ix2 k q) := by
  show V c main_arg2 (((cfg0.win 1).blk t).view.emb (ix2 k q)) = V c main_arg2 (ix2 k q)
  refine congrArg (V c main_arg2) ?_
  obtain ⟨-, -, e2, e3, -⟩ := index_maps0 t
  funext a; apply Fin.ext
  match a with
  | ⟨0, _⟩ => show win0_1.index t (0 : Fin 2) * 512 + 1 * k.val = k.val; omega
  | ⟨1, _⟩ => show win0_1.index t (1 : Fin 2) * 256 + 1 * q.val = q.val; omega

/-- Block `t` of the factor column, at `(p, u)`. -/
theorem blk0_2 (c : Dev nD) (t : Fin cfg0.N) (p : Fin 2000) (u : Fin 1) :
    iblk0 V c 2 t (ix2 p u) = V c main_v15 (ix2 (rowOf (pt0 t) p) u) := by
  show V c main_v15 (((cfg0.win 2).blk t).view.emb (ix2 p u)) = V c main_v15 (ix2 (rowOf (pt0 t) p) u)
  refine congrArg (V c main_v15) ?_
  obtain ⟨-, -, -, -, e4, e5, -⟩ := index_maps0 t
  funext a; apply Fin.ext
  match a with
  | ⟨0, _⟩ => show win0_2.index t (0 : Fin 2) * 2000 + 1 * p.val = t.val * 2000 + p.val; omega
  | ⟨1, _⟩ => show win0_2.index t (1 : Fin 2) * 1 + 1 * u.val = u.val; omega

/-- Where entry `(p, q)` of output block `t` sits in the output array. -/
theorem emb0_3 (t : Fin cfg0.N) (p : Fin 2000) (q : Fin 256) :
    ((cfg0.win 3).blk t).view.emb (ix2 p q) = ix2 (rowOf (pt0 t) p) q := by
  obtain ⟨-, -, -, -, -, -, e6, e7⟩ := index_maps0 t
  funext a; apply Fin.ext
  match a with
  | ⟨0, _⟩ => show win0_3.index t (0 : Fin 2) * 2000 + 1 * p.val = t.val * 2000 + p.val; omega
  | ⟨1, _⟩ => show win0_3.index t (1 : Fin 2) * 256 + 1 * q.val = q.val; omega

/-- WHAT POINT `t` WRITES BACK is block `t` of the scaled product of the arrays the region finds. -/
theorem flushed0 (c : Dev nD) (t : Fin cfg0.N) :
    (dat0 V c).flushed 3 t
      = ((cfg0.win 3).blk t).view.read (Elt Ideal) (stage0 (V c main_arg0) (V c main_arg2) (V c main_v15)) := by
  show (cfg0.win 3).cut (grid0.coords t) ((dat0 V c).after 3 t) = _
  rw [after0_3]
  unfold out0_3
  rw [View.canon_unit_zero zero_offsets]
  simp only [View.ld_unit_zero (S := S2000x512) zero_offsets, View.ld_unit_zero (S := S512x256) zero_offsets,
    View.ld_unit_zero (S := S2000x1) zero_offsets]
  funext j
  obtain ⟨p, q, rfl⟩ : ∃ (p : Fin 2000) (q : Fin 256), j = ix2 p q := ⟨j 0, j 1, eq_ix2 j⟩
  refine (pay0_apply (iblk0 V c 0 t) (iblk0 V c 1 t) (iblk0 V c 2 t) p q).trans ?_
  show _ = stage0 (V c main_arg0) (V c main_arg2) (V c main_v15) (((cfg0.win 3).blk t).view.emb (ix2 p q))
  rw [emb0_3 t p q, blk0_2 V c t p 0]
  simp only [blk0_0 V c t p, blk0_1 V c t]
  rfl

/-- An index of the output array is in point `t`'s block iff each coordinate is in the block's range. -/
theorem mem_blk0_3 (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v16).slice (win0_3.rect t)).set ↔ _
  rw [View.set_slice_whole, Rect.mem_set_unit]
  exact Iff.rfl

/-- The output's blocks cover the array: row `r` is in the block of point `r / 2000`. -/
theorem cover0_3 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  let t : Fin cfg0.N := ⟨(i 0).val / 2000, by show (i 0).val / 2000 < 25; omega⟩
  obtain ⟨-, -, -, -, -, -, e6, e7⟩ := index_maps0 t
  have ht : t.val = (i 0).val / 2000 := rfl
  refine ⟨t, flush0_3 t, ?_⟩
  rw [mem_blk0_3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- THE OUTPUT ARRAY after the first region. -/
theorem final0 (c : Dev nD) :
    (dat0 V c).arrAt 3 cfg0.N = stage0 (V c main_arg0) (V c main_arg2) (V c main_v15) :=
  (dat0 V c).arrAt_eq_of_cover 3 _ (fun t _ => flushed0 V c t) cover0_3

end Cert.KernelIdeal.Blocks

end
-- ==== Proof.Region1.lean ====
/-
  The second region's output array after the region, as one function of the arrays the region finds.

  The same 25 row blocks of 2000 rows. Point `t` fetches rows `2000·t …` of the aggregated features and of the factor
  column, the whole bias vector and the whole weight matrix, and writes back those rows of the output: entry `(r, q)` of
  the output array ends at `(Σ_c max(a(r,c) · d(r) + b(c), 0) · W(c,q)) · d(r)`.
-/
import proofs.«107428_j55207509623327_2_alg».proof.Proof.Region0

set_option maxRecDepth 16384

noncomputable section

namespace Cert.KernelIdeal.Blocks

open Cert.KernelIdeal Cert.KernelIdeal.Gen Cert.KernelIdeal.Body Idealize.ShloMosaic Idealize.ShloMosaic.TcCoe
  Idealize.ShloMosaic.ValueIdx Idealize.SL.Sem Cert.TwoLayer
open Idealize.ShloMosaic.Pipeline (Dat Cfg Window)

variable (V : (c : Dev nD) → (b : Ref sig .tc) → Buf (Elt Ideal) ((c : Thread nD τ).loc b))

theorem zero_offset1 : (![0] : Fin 1 → Nat) = fun _ => 0 := funext fun a => by fin_cases a; rfl

/-- A point of the second region's grid, as a number below 25. -/
def pt1 (t : Fin cfg1.N) : Fin 25 := ⟨t.val, lt_of_lt_of_eq t.isLt N_1⟩

/-- The printed index maps of the second region, decided over its grid. -/
theorem index_maps1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block `t` of the aggregated features, at `(p, k)`. -/
theorem blk1_0 (c : Dev nD) (t : Fin cfg1.N) (p : Fin 2000) (k : Fin 256) :
    iblk1 V c 0 t (ix2 p k) = V c main_v27 (ix2 (rowOf (pt1 t) p) k) := by
  show V c main_v27 (((cfg1.win 0).blk t).view.emb (ix2 p k)) = V c main_v27 (ix2 (rowOf (pt1 t) p) k)
  refine congrArg (V c main_v27) ?_
  obtain ⟨e0, e1, -⟩ := index_maps1 t
  funext a; apply Fin.ext
  match a with
  | ⟨0, _⟩ => show win1_0.index t (0 : Fin 2) * 2000 + 1 * p.val = t.val * 2000 + p.val; omega
  | ⟨1, _⟩ => show win1_0.index t (1 : Fin 2) * 256 + 1 * k.val = k.val; omega

/-- The bias vector is fetched whole at every point. -/
theorem blk1_1 (c : Dev nD) (t : Fin cfg1.N) (k : Fin 256) :
    iblk1 V c 1 t (ix1 k) = V c main_arg3 (ix1 k) := by
  show V c main_arg3 (((cfg1.win 1).blk t).view.emb (ix1 k)) = V c main_arg3 (ix1 k)
  refine congrArg (V c main_arg3) ?_
  obtain ⟨-, -, e2, -⟩ := index_maps1 t
  funext a; apply Fin.ext
  match a with
  | ⟨0, _⟩ => show win1_1.index t (0 : Fin 1) * 256 + 1 * k.val = k.val; omega

/-- Block `t` of the factor column, at `(p, u)`. -/
theorem blk1_2 (c : Dev nD) (t : Fin cfg1.N) (p : Fin 2000) (u : Fin 1) :
    iblk1 V c 2 t (ix2 p u) = V c main_v15 (ix2 (rowOf (pt1 t) p) u) := by
  show V c main_v15 (((cfg1.win 2).blk t).view.emb (ix2 p u)) = V c main_v15 (ix2 (rowOf (pt1 t) p) u)
  refine congrArg (V c main_v15) ?_
  obtain ⟨-, -, -, e3, e4, -⟩ := index_maps1 t
  funext a; apply Fin.ext
  match a with
  | ⟨0, _⟩ => show win1_2.index t (0 : Fin 2) * 2000 + 1 * p.val = t.val * 2000 + p.val; omega
  | ⟨1, _⟩ => show win1_2.index t (1 : Fin 2) * 1 + 1 * u.val = u.val; omega

/-- The weight matrix is fetched whole at every point. -/
theorem blk1_3 (c : Dev nD) (t : Fin cfg1.N) (k : Fin 256) (q : Fin 128) :
    iblk1 V c 3 t (ix2 k q) = V c main_arg4 (ix2 k q) := by
  show V c main_arg4 (((cfg1.win 3).blk t).view.emb (ix2 k q)) = V c main_arg4 (ix2 k q)
  refine congrArg (V c main_arg4) ?_
  obtain ⟨-, -, -, -, -, e5, e6, -⟩ := index_maps1 t
  funext a; apply Fin.ext
  match a with
  | ⟨0, _⟩ => show win1_3.index t (0 : Fin 2) * 256 + 1 * k.val = k.val; omega
  | ⟨1, _⟩ => show win1_3.index t (1 : Fin 2) * 128 + 1 * q.val = q.val; omega

/-- Where entry `(p, q)` of output block `t` sits in the output array. -/
theorem emb1_4 (t : Fin cfg1.N) (p : Fin 2000) (q : Fin 128) :
    ((cfg1.win 4).blk t).view.emb (ix2 p q) = ix2 (rowOf (pt1 t) p) q := by
  obtain ⟨-, -, -, -, -, -, -, e7, e8⟩ := index_maps1 t
  funext a; apply Fin.ext
  match a with
  | ⟨0, _⟩ => show win1_4.index t (0 : Fin 2) * 2000 + 1 * p.val = t.val * 2000 + p.val; omega
  | ⟨1, _⟩ => show win1_4.index t (1 : Fin 2) * 128 + 1 * q.val = q.val; omega

/-- WHAT POINT `t` WRITES BACK is block `t` of the second stage of the arrays the region finds. -/
theorem flushed1 (c : Dev nD) (t : Fin cfg1.N) :
    (dat1 V c).flushed 4 t
      = ((cfg1.win 4).blk t).view.read (Elt Ideal)
          (stage1 (V c main_v27) (V c main_arg3) (V c main_v15) (V c main_arg4)) := by
  show (cfg1.win 4).cut (grid1.coords t) ((dat1 V c).after 4 t) = _
  rw [after1_4]
  unfold out1_4
  rw [View.canon_unit_zero zero_offsets]
  simp only [View.ld_unit_zero (S := S2000x256) zero_offsets, View.ld_unit_zero (S := S256x128) zero_offsets,
    View.ld_unit_zero (S := S2000x1) zero_offsets, View.ld_unit_zero (S := S256) zero_offset1]
  funext j
  obtain ⟨p, q, rfl⟩ : ∃ (p : Fin 2000) (q : Fin 128), j = ix2 p q := ⟨j 0, j 1, eq_ix2 j⟩
  refine (pay1_apply (iblk1 V c 0 t) (iblk1 V c 2 t) (iblk1 V c 1 t) (iblk1 V c 3 t) (iblk1 V c 2 t) p q).trans ?_
  show _ = stage1 (V c main_v27) (V c main_arg3) (V c main_v15) (V c main_arg4) (((cfg1.win 4).blk t).view.emb (ix2 p q))
  rw [emb1_4 t p q, blk1_2 V c t p 0]
  simp only [blk1_0 V c t p, blk1_1 V c t, blk1_3 V c t]
  rfl

/-- An index of the output array is in point `t`'s block iff each coordinate is in the block's range. -/
theorem mem_blk1_4 (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v28).slice (win1_4.rect t)).set ↔ _
  rw [View.set_slice_whole, Rect.mem_set_unit]
  exact Iff.rfl

/-- The output's blocks cover the array. -/
theorem cover1_4 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  let t : Fin cfg1.N := ⟨(i 0).val / 2000, by show (i 0).val / 2000 < 25; omega⟩
  obtain ⟨-, -, -, -, -, -, -, e7, e8⟩ := index_maps1 t
  have ht : t.val = (i 0).val / 2000 := rfl
  refine ⟨t, flush1_4 t, ?_⟩
  rw [mem_blk1_4]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- THE OUTPUT ARRAY after the second region. -/
theorem final1 (c : Dev nD) :
    (dat1 V c).arrAt 4 cfg1.N = stage1 (V c main_v27) (V c main_arg3) (V c main_v15) (V c main_arg4) :=
  (dat1 V c).arrAt_eq_of_cover 4 _ (fun t _ => flushed1 V c t) cover1_4

end Cert.KernelIdeal.Blocks

end
-- ==== Proof.Region2.lean ====
/-
  The third region's output array after the region, as one function of the arrays the region finds.

  The same 25 row blocks of 2000 rows. Point `t` fetches rows `2000·t …` of the aggregated features and of the factor
  column, the whole bias vector, the whole head matrix and the whole head bias, and writes back those rows of the result:
  entry `(r, q)` ends at `Σ_c leaky(a(r,c) · d(r) + b(c)) · W(c,q) + bm(q)`.
-/
import proofs.«107428_j55207509623327_2_alg».proof.Proof.Region1

set_option maxRecDepth 16384

noncomputable section

namespace Cert.KernelIdeal.Blocks

open Cert.KernelIdeal Cert.KernelIdeal.Gen Cert.KernelIdeal.Body Idealize.ShloMosaic Idealize.ShloMosaic.TcCoe
  Idealize.ShloMosaic.ValueIdx Idealize.SL.Sem Cert.TwoLayer
open Idealize.ShloMosaic.Pipeline (Dat Cfg Window)

variable (V : (c : Dev nD) → (b : Ref sig .tc) → Buf (Elt Ideal) ((c : Thread nD τ).loc b))

/-- A point of the third region's grid, as a number below 25. -/
def pt2 (t : Fin cfg2.N) : Fin 25 := ⟨t.val, lt_of_lt_of_eq t.isLt N_2⟩

/-- The printed index maps of the third region, decided over its grid. -/
theorem index_maps2 : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Block `t` of the aggregated features, at `(p, k)`. -/
theorem blk2_0 (c : Dev nD) (t : Fin cfg2.N) (p : Fin 2000) (k : Fin 128) :
    iblk2 V c 0 t (ix2 p k) = V c main_v39 (ix2 (rowOf (pt2 t) p) k) := by
  show V c main_v39 (((cfg2.win 0).blk t).view.emb (ix2 p k)) = V c main_v39 (ix2 (rowOf (pt2 t) p) k)
  refine congrArg (V c main_v39) ?_
  obtain ⟨e0, e1, -⟩ := index_maps2 t
  funext a; apply Fin.ext
  match a with
  | ⟨0, _⟩ => show win2_0.index t (0 : Fin 2) * 2000 + 1 * p.val = t.val * 2000 + p.val; omega
  | ⟨1, _⟩ => show win2_0.index t (1 : Fin 2) * 128 + 1 * k.val = k.val; omega

/-- The bias vector is fetched whole at every point. -/
theorem blk2_1 (c : Dev nD) (t : Fin cfg2.N) (k : Fin 128) :
    iblk2 V c 1 t (ix1 k) = V c main_arg5 (ix1 k) := by
  show V c main_arg5 (((cfg2.win 1).blk t).view.emb (ix1 k)) = V c main_arg5 (ix1 k)
  refine congrArg (V c main_arg5) ?_
  obtain ⟨-, -, e2, -⟩ := index_maps2 t
  funext a; apply Fin.ext
  match a with
  | ⟨0, _⟩ => show win2_1.index t (0 : Fin 1) * 128 + 1 * k.val = k.val; omega

/-- Block `t` of the factor column, at `(p, u)`. -/
theorem blk2_2 (c : Dev nD) (t : Fin cfg2.N) (p : Fin 2000) (u : Fin 1) :
    iblk2 V c 2 t (ix2 p u) = V c main_v15 (ix2 (rowOf (pt2 t) p) u) := by
  show V c main_v15 (((cfg2.win 2).blk t).view.emb (ix2 p u)) = V c main_v15 (ix2 (rowOf (pt2 t) p) u)
  refine congrArg (V c main_v15) ?_
  obtain ⟨-, -, -, e3, e4, -⟩ := index_maps2 t
  funext a; apply Fin.ext
  match a with
  | ⟨0, _⟩ => show win2_2.index t (0 : Fin 2) * 2000 + 1 * p.val = t.val * 2000 + p.val; omega
  | ⟨1, _⟩ => show win2_2.index t (1 : Fin 2) * 1 + 1 * u.val = u.val; omega

/-- The head matrix is fetched whole at every point. -/
theorem blk2_3 (c : Dev nD) (t : Fin cfg2.N) (k : Fin 128) (q : Fin 7) :
    iblk2 V c 3 t (ix2 k q) = V c main_arg6 (ix2 k q) := by
  show V c main_arg6 (((cfg2.win 3).blk t).view.emb (ix2 k q)) = V c main_arg6 (ix2 k q)
  refine congrArg (V c main_arg6) ?_
  obtain ⟨-, -, -, -, -, e5, e6, -⟩ := index_maps2 t
  funext a; apply Fin.ext
  match a with
  | ⟨0, _⟩ => show win2_3.index t (0 : Fin 2) * 128 + 1 * k.val = k.val; omega
  | ⟨1, _⟩ => show win2_3.index t (1 : Fin 2) * 7 + 1 * q.val = q.val; omega

/-- The head bias is fetched whole at every point. -/
theorem blk2_4 (c : Dev nD) (t : Fin cfg2.N) (q : Fin 7) :
    iblk2 V c 4 t (ix1 q) = V c main_arg7 (ix1 q) := by
  show V c main_arg7 (((cfg2.win 4).blk t).view.emb (ix1 q)) = V c main_arg7 (ix1 q)
  refine congrArg (V c main_arg7) ?_
  obtain ⟨-, -, -, -, -, -, -, e7, -⟩ := index_maps2 t
  funext a; apply Fin.ext
  match a with
  | ⟨0, _⟩ => show win2_4.index t (0 : Fin 1) * 7 + 1 * q.val = q.val; omega

/-- Where entry `(p, q)` of output block `t` sits in the result array. -/
theorem emb2_5 (t : Fin cfg2.N) (p : Fin 2000) (q : Fin 7) :
    ((cfg2.win 5).blk t).view.emb (ix2 p q) = ix2 (rowOf (pt2 t) p) q := by
  obtain ⟨-, -, -, -, -, -, -, -, e8, e9⟩ := index_maps2 t
  funext a; apply Fin.ext
  match a with
  | ⟨0, _⟩ => show win2_5.index t (0 : Fin 2) * 2000 + 1 * p.val = t.val * 2000 + p.val; omega
  | ⟨1, _⟩ => show win2_5.index t (1 : Fin 2) * 7 + 1 * q.val = q.val; omega

/-- WHAT POINT `t` WRITES BACK is block `t` of the third stage of the arrays the region finds. -/
theorem flushed2 (c : Dev nD) (t : Fin cfg2.N) :
    (dat2 V c).flushed 5 t
      = ((cfg2.win 5).blk t).view.read (Elt Ideal)
          (stage2 (V c main_v39) (V c main_arg5) (V c main_v15) (V c main_arg6) (V c main_arg7)) := by
  show (cfg2.win 5).cut (grid2.coords t) ((dat2 V c).after 5 t) = _
  rw [after2_5]
  unfold out2_5
  rw [View.canon_unit_zero zero_offsets]
  simp only [View.ld_unit_zero (S := S2000x128) zero_offsets, View.ld_unit_zero (S := S128x7) zero_offsets,
    View.ld_unit_zero (S := S2000x1) zero_offsets, View.ld_unit_zero (S := S128) zero_offset1,
    View.ld_unit_zero (S := S7) zero_offset1]
  funext j
  obtain ⟨p, q, rfl⟩ : ∃ (p : Fin 2000) (q : Fin 7), j = ix2 p q := ⟨j 0, j 1, eq_ix2 j⟩
  refine (pay2_apply (iblk2 V c 0 t) (iblk2 V c 2 t) (iblk2 V c 1 t) (iblk2 V c 3 t) (iblk2 V c 4 t) p q).trans ?_
  show _ = stage2 (V c main_v39) (V c main_arg5) (V c main_v15) (V c main_arg6) (V c main_arg7)
    (((cfg2.win 5).blk t).view.emb (ix2 p q))
  rw [emb2_5 t p q, blk2_4 V c t q]
  simp only [blk2_0 V c t p, blk2_1 V c t, blk2_2 V c t p, blk2_3 V c t]
  rfl

/-- An index of the result array is in point `t`'s block iff each coordinate is in the block's range. -/
theorem mem_blk2_5 (t : Fin cfg2.N) (i : S50000x7.Idx) :
    i ∈ ((cfg2.win 5).blk t).view.set ↔ ∀ a : Fin 2, win2_5.index t a * S2000x7.size a ≤ (i a).val
      ∧ (i a).val < win2_5.index t a * S2000x7.size a + S2000x7.size a := by
  show i ∈ ((View.whole main_v40).slice (win2_5.rect t)).set ↔ _
  rw [View.set_slice_whole, Rect.mem_set_unit]
  exact Iff.rfl

/-- The output's blocks cover the array. -/
theorem cover2_5 (i : S50000x7.Idx) :
    ∃ t : Fin cfg2.N, (cfg2.win 5).flush t = true ∧ i ∈ ((cfg2.win 5).blk t).view.set := by
  have hi0 : (i 0).val < 50000 := (i 0).isLt
  have hi1 : (i 1).val < 7 := (i 1).isLt
  let t : Fin cfg2.N := ⟨(i 0).val / 2000, by show (i 0).val / 2000 < 25; omega⟩
  obtain ⟨-, -, -, -, -, -, -, -, e8, e9⟩ := index_maps2 t
  have ht : t.val = (i 0).val / 2000 := rfl
  refine ⟨t, flush2_5 t, ?_⟩
  rw [mem_blk2_5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 7 ≤ (i 1).val ∧ (i 1).val < win2_5.index t (1 : Fin 2) * 7 + 7; omega

/-- THE RESULT ARRAY after the third region. -/
theorem final2 (c : Dev nD) :
    (dat2 V c).arrAt 5 cfg2.N
      = stage2 (V c main_v39) (V c main_arg5) (V c main_v15) (V c main_arg6) (V c main_arg7) :=
  (dat2 V c).arrAt_eq_of_cover 5 _ (fun t _ => flushed2 V c t) cover2_5

end Cert.KernelIdeal.Blocks

end
-- ==== Proof.KValue.lean ====
/-
  The idealized kernel's result buffer as one term of the argument arrays.

  Between the launch and the return the buffers change at eight boundaries: three stretches of host operations (the edge
  lists with the self loops appended, the degree and the per-node factor, the factor as a column), the first region, a
  stretch (wrap the sources, gather, scatter-add), the second region, the same stretch again, the third region. A buffer
  that a stretch does not write and that is no output of a region keeps its contents across it, so each region finds the
  argument arrays as launched and the factor column as first computed; each region's output array is its stage's function
  of what the region finds (the three block-by-block modules); and each gather / scatter-add stretch applies to the
  previous region's output array. Composing the boundaries names the result.
-/
import proofs.«107428_j55207509623327_2_alg».proof.Proof.KValueDefs
import proofs.«107428_j55207509623327_2_alg».proof.Proof.Region2
import Idealize.ShloMosaic.Lib.StableHlo.Run
import Idealize.ShloMosaic.PureOps.Ideal

set_option maxRecDepth 16384

noncomputable section

namespace Cert.KernelIdeal.Through

open Cert.KernelIdeal Cert.KernelIdeal.Gen Cert.KernelIdeal.Blocks Cert.KernelIdeal.RunOut Idealize.ShloMosaic
  Idealize.ShloMosaic.TcCoe Idealize.SL.Sem Idealize.ShloMosaic.StableHlo Cert.TwoLayer

/-- A buffer that no operation of a stretch writes keeps its contents across the stretch. -/
macro "keep_host" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg) (c : Dev nD)

/-- An argument array as launched. -/
abbrev argAt (b : Ref sig .tc) : Buf (Elt Ideal) ((c.tc : Thread nD τ).loc b) := m ((c.tc : Thread nD τ).loc b)

/-! ## After the first stretches: the edge lists and the factor column -/

theorem w1_v3 : W1 m ρ c (Proc.devRef .tc main_v3) = srcVec (argAt m c main_arg1) := by
  show StableHlo.after hostOps0 (W0 m ρ c) (Proc.devRef .tc main_v3) = _
  after_results
  rfl

theorem w1_v6 : W1 m ρ c (Proc.devRef .tc main_v6) = dstVec (argAt m c main_arg1) := by
  show StableHlo.after hostOps0 (W0 m ρ c) (Proc.devRef .tc main_v6) = _
  after_results
  rfl

theorem w1_v12 : W1 m ρ c (Proc.devRef .tc main_v12)
    = cmpf .ogt (degVec (argAt m c main_arg1)) (broadcastInDim S50000 ![] bcast_S_S50000 (constant S_ .f32 0x00000000#32)) := by
  show StableHlo.after hostOps0 (W0 m ρ c) (Proc.devRef .tc main_v12) = _
  after_results
  rfl

theorem w1_v13 : W1 m ρ c (Proc.devRef .tc main_v13) = Host.rsqrt (degVec (argAt m c main_arg1)) := by
  show StableHlo.after hostOps0 (W0 m ρ c) (Proc.devRef .tc main_v13) = _
  after_results
  rfl

theorem w1_cst2 : W1 m ρ c (Proc.devRef .tc main_cst_2) = constant (F := Ideal) S_ .f32 0x00000000#32 := by
  show StableHlo.after hostOps0 (W0 m ρ c) (Proc.devRef .tc main_cst_2) = _
  after_results

/-- The select of the module-local function, over ANY contents before it: the comparison, the inverse square root and
    the zero are whatever their buffers hold, so only the typed references' transports are compared. -/
theorem where_step (V : Valuation τ sig (Elt Ideal)) :
    StableHlo.after hostOps0_1 V (Proc.devRef .tc main_v14)
      = select (V (Proc.devRef .tc main_v12)) (V (Proc.devRef .tc main_v13))
          (broadcastInDim S50000 ![] bcast_S_S50000 (id (V (Proc.devRef .tc main_cst_2)))) := by
  after_results
  rfl

/-- The factor vector turned into a column, over any contents before it. -/
theorem col_step (V : Valuation τ sig (Elt Ideal)) :
    StableHlo.after hostOps0_2 V (Proc.devRef .tc main_v15)
      = broadcastInDim S50000x1 ![0] bcast_S50000_S50000x1_0 (V (Proc.devRef .tc main_v14)) := by
  after_results

theorem w2_v14 : W2 m ρ c (Proc.devRef .tc main_v14) = facVec (argAt m c main_arg1) := by
  refine (where_step (W1 m ρ c)).trans ?_
  rw [w1_v12 m ρ c, w1_v13 m ρ c, w1_cst2 m ρ c]
  rfl

theorem w3_v15 : W3 m ρ c (Proc.devRef .tc main_v15) = facCol (argAt m c main_arg1) := by
  refine (col_step (W2 m ρ c)).trans ?_
  rw [w2_v14 m ρ c]
  rfl

/-- An argument no stretch writes: its contents at the first region's entry are the launch contents. -/
theorem w3_keep (b : Ref sig .tc)
    (h0 : StableHlo.after hostOps0 (W0 m ρ c) (Proc.devRef .tc b) = W0 m ρ c (Proc.devRef .tc b))
    (h1 : StableHlo.after hostOps0_1 (W1 m ρ c) (Proc.devRef .tc b) = W1 m ρ c (Proc.devRef .tc b))
    (h2 : StableHlo.after hostOps0_2 (W2 m ρ c) (Proc.devRef .tc b) = W2 m ρ c (Proc.devRef .tc b)) :
    W3 m ρ c (Proc.devRef .tc b) = W0 m ρ c (Proc.devRef .tc b) :=
  h2.trans (h1.trans h0)

theorem w3_arg0 : W3 m ρ c (Proc.devRef .tc main_arg0) = argAt m c main_arg0 :=
  w3_keep m ρ c main_arg0 (by keep_host hostOps0) (by keep_host hostOps0_1) (by keep_host hostOps0_2)
theorem w3_arg2 : W3 m ρ c (Proc.devRef .tc main_arg2) = argAt m c main_arg2 :=
  w3_keep m ρ c main_arg2 (by keep_host hostOps0) (by keep_host hostOps0_1) (by keep_host hostOps0_2)
theorem w3_arg3 : W3 m ρ c (Proc.devRef .tc main_arg3) = argAt m c main_arg3 :=
  w3_keep m ρ c main_arg3 (by keep_host hostOps0) (by keep_host hostOps0_1) (by keep_host hostOps0_2)
theorem w3_arg4 : W3 m ρ c (Proc.devRef .tc main_arg4) = argAt m c main_arg4 :=
  w3_keep m ρ c main_arg4 (by keep_host hostOps0) (by keep_host hostOps0_1) (by keep_host hostOps0_2)
theorem w3_arg5 : W3 m ρ c (Proc.devRef .tc main_arg5) = argAt m c main_arg5 :=
  w3_keep m ρ c main_arg5 (by keep_host hostOps0) (by keep_host hostOps0_1) (by keep_host hostOps0_2)
theorem w3_arg6 : W3 m ρ c (Proc.devRef .tc main_arg6) = argAt m c main_arg6 :=
  w3_keep m ρ c main_arg6 (by keep_host hostOps0) (by keep_host hostOps0_1) (by keep_host hostOps0_2)
theorem w3_arg7 : W3 m ρ c (Proc.devRef .tc main_arg7) = argAt m c main_arg7 :=
  w3_keep m ρ c main_arg7 (by keep_host hostOps0) (by keep_host hostOps0_1) (by keep_host hostOps0_2)

theorem w3_v3 : W3 m ρ c (Proc.devRef .tc main_v3) = srcVec (argAt m c main_arg1) :=
  (show StableHlo.after hostOps0_2 (W2 m ρ c) (Proc.devRef .tc main_v3) = W2 m ρ c (Proc.devRef .tc main_v3) by
    keep_host hostOps0_2).trans
  ((show StableHlo.after hostOps0_1 (W1 m ρ c) (Proc.devRef .tc main_v3) = W1 m ρ c (Proc.devRef .tc main_v3) by
    keep_host hostOps0_1).trans (w1_v3 m ρ c))

theorem w3_v6 : W3 m ρ c (Proc.devRef .tc main_v6) = dstVec (argAt m c main_arg1) :=
  (show StableHlo.after hostOps0_2 (W2 m ρ c) (Proc.devRef .tc main_v6) = W2 m ρ c (Proc.devRef .tc main_v6) by
    keep_host hostOps0_2).trans
  ((show StableHlo.after hostOps0_1 (W1 m ρ c) (Proc.devRef .tc main_v6) = W1 m ρ c (Proc.devRef .tc main_v6) by
    keep_host hostOps0_1).trans (w1_v6 m ρ c))

/-! ## Across the first region -/

theorem w4_v16 : W4 m ρ c (Proc.devRef .tc main_v16)
    = stage0 (argAt m c main_arg0) (argAt m c main_arg2) (facCol (argAt m c main_arg1)) := by
  refine (W4_arr m ρ c 3).trans ((final0 (V3 m ρ) c).trans ?_)
  have e0 : V3 m ρ c main_arg0 = argAt m c main_arg0 := w3_arg0 m ρ c
  have e2 : V3 m ρ c main_arg2 = argAt m c main_arg2 := w3_arg2 m ρ c
  have e15 : V3 m ρ c main_v15 = facCol (argAt m c main_arg1) := w3_v15 m ρ c
  rw [e0, e2, e15]

theorem w4_v15 : W4 m ρ c (Proc.devRef .tc main_v15) = facCol (argAt m c main_arg1) :=
  (W4_arr m ρ c 2).trans ((((dat0 (V3 m ρ) c).arrAt_in 2 rfl _).trans (A_eq0 (V3 m ρ) c 2)).trans (w3_v15 m ρ c))

theorem w4_v3 : W4 m ρ c (Proc.devRef .tc main_v3) = srcVec (argAt m c main_arg1) :=
  (W4_of_ne m ρ c main_v3 (by decide)).trans (w3_v3 m ρ c)
theorem w4_v6 : W4 m ρ c (Proc.devRef .tc main_v6) = dstVec (argAt m c main_arg1) :=
  (W4_of_ne m ρ c main_v6 (by decide)).trans (w3_v6 m ρ c)
theorem w4_arg3 : W4 m ρ c (Proc.devRef .tc main_arg3) = argAt m c main_arg3 :=
  (W4_of_ne m ρ c main_arg3 (by decide)).trans (w3_arg3 m ρ c)
theorem w4_arg4 : W4 m ρ c (Proc.devRef .tc main_arg4) = argAt m c main_arg4 :=
  (W4_of_ne m ρ c main_arg4 (by decide)).trans (w3_arg4 m ρ c)
theorem w4_arg5 : W4 m ρ c (Proc.devRef .tc main_arg5) = argAt m c main_arg5 :=
  (W4_of_ne m ρ c main_arg5 (by decide)).trans (w3_arg5 m ρ c)
theorem w4_arg6 : W4 m ρ c (Proc.devRef .tc main_arg6) = argAt m c main_arg6 :=
  (W4_of_ne m ρ c main_arg6 (by decide)).trans (w3_arg6 m ρ c)
theorem w4_arg7 : W4 m ρ c (Proc.devRef .tc main_arg7) = argAt m c main_arg7 :=
  (W4_of_ne m ρ c main_arg7 (by decide)).trans (w3_arg7 m ρ c)

/-! ## The first gather and scatter-add, and across the second region -/

set_option maxHeartbeats 2000000 in
theorem w5_v27 : W5 m ρ c (Proc.devRef .tc main_v27)
    = agg256 (stage0 (argAt m c main_arg0) (argAt m c main_arg2) (facCol (argAt m c main_arg1))) (argAt m c main_arg1) := by
  show StableHlo.after hostOps1 (W4 m ρ c) (Proc.devRef .tc main_v27) = _
  after_results
  rw [w4_v16 m ρ c, w4_v3 m ρ c, w4_v6 m ρ c]
  rfl

theorem w5_keep (b : Ref sig .tc)
    (h : StableHlo.after hostOps1 (W4 m ρ c) (Proc.devRef .tc b) = W4 m ρ c (Proc.devRef .tc b)) :
    W5 m ρ c (Proc.devRef .tc b) = W4 m ρ c (Proc.devRef .tc b) := h

theorem w5_v15 : W5 m ρ c (Proc.devRef .tc main_v15) = facCol (argAt m c main_arg1) :=
  (w5_keep m ρ c main_v15 (by keep_host hostOps1)).trans (w4_v15 m ρ c)
theorem w5_v3 : W5 m ρ c (Proc.devRef .tc main_v3) = srcVec (argAt m c main_arg1) :=
  (w5_keep m ρ c main_v3 (by keep_host hostOps1)).trans (w4_v3 m ρ c)
theorem w5_v6 : W5 m ρ c (Proc.devRef .tc main_v6) = dstVec (argAt m c main_arg1) :=
  (w5_keep m ρ c main_v6 (by keep_host hostOps1)).trans (w4_v6 m ρ c)
theorem w5_arg3 : W5 m ρ c (Proc.devRef .tc main_arg3) = argAt m c main_arg3 :=
  (w5_keep m ρ c main_arg3 (by keep_host hostOps1)).trans (w4_arg3 m ρ c)
theorem w5_arg4 : W5 m ρ c (Proc.devRef .tc main_arg4) = argAt m c main_arg4 :=
  (w5_keep m ρ c main_arg4 (by keep_host hostOps1)).trans (w4_arg4 m ρ c)
theorem w5_arg5 : W5 m ρ c (Proc.devRef .tc main_arg5) = argAt m c main_arg5 :=
  (w5_keep m ρ c main_arg5 (by keep_host hostOps1)).trans (w4_arg5 m ρ c)
theorem w5_arg6 : W5 m ρ c (Proc.devRef .tc main_arg6) = argAt m c main_arg6 :=
  (w5_keep m ρ c main_arg6 (by keep_host hostOps1)).trans (w4_arg6 m ρ c)
theorem w5_arg7 : W5 m ρ c (Proc.devRef .tc main_arg7) = argAt m c main_arg7 :=
  (w5_keep m ρ c main_arg7 (by keep_host hostOps1)).trans (w4_arg7 m ρ c)

/-- The second region's output array. -/
def out1 (a0 : FVec Ideal S50000x512 .f32) (a1 : IVec S2x800000 32) (a2 : FVec Ideal S512x256 .f32)
    (a3 : FVec Ideal S256 .f32) (a4 : FVec Ideal S256x128 .f32) : FVec Ideal S50000x128 .bf16 :=
  stage1 (agg256 (stage0 a0 a2 (facCol a1)) a1) a3 (facCol a1) a4

theorem w6_v28 : W6 m ρ c (Proc.devRef .tc main_v28)
    = out1 (argAt m c main_arg0) (argAt m c main_arg1) (argAt m c main_arg2) (argAt m c main_arg3) (argAt m c main_arg4) := by
  refine (W6_arr m ρ c 4).trans ((final1 (V5 m ρ) c).trans ?_)
  have e27 : V5 m ρ c main_v27 = _ := w5_v27 m ρ c
  have e3 : V5 m ρ c main_arg3 = argAt m c main_arg3 := w5_arg3 m ρ c
  have e15 : V5 m ρ c main_v15 = facCol (argAt m c main_arg1) := w5_v15 m ρ c
  have e4 : V5 m ρ c main_arg4 = argAt m c main_arg4 := w5_arg4 m ρ c
  rw [e27, e3, e15, e4]
  rfl

theorem w6_v15 : W6 m ρ c (Proc.devRef .tc main_v15) = facCol (argAt m c main_arg1) :=
  (W6_arr m ρ c 2).trans ((((dat1 (V5 m ρ) c).arrAt_in 2 rfl _).trans (A_eq1 (V5 m ρ) c 2)).trans (w5_v15 m ρ c))
theorem w6_v3 : W6 m ρ c (Proc.devRef .tc main_v3) = srcVec (argAt m c main_arg1) :=
  (W6_of_ne m ρ c main_v3 (by decide)).trans (w5_v3 m ρ c)
theorem w6_v6 : W6 m ρ c (Proc.devRef .tc main_v6) = dstVec (argAt m c main_arg1) :=
  (W6_of_ne m ρ c main_v6 (by decide)).trans (w5_v6 m ρ c)
theorem w6_arg5 : W6 m ρ c (Proc.devRef .tc main_arg5) = argAt m c main_arg5 :=
  (W6_of_ne m ρ c main_arg5 (by decide)).trans (w5_arg5 m ρ c)
theorem w6_arg6 : W6 m ρ c (Proc.devRef .tc main_arg6) = argAt m c main_arg6 :=
  (W6_of_ne m ρ c main_arg6 (by decide)).trans (w5_arg6 m ρ c)
theorem w6_arg7 : W6 m ρ c (Proc.devRef .tc main_arg7) = argAt m c main_arg7 :=
  (W6_of_ne m ρ c main_arg7 (by decide)).trans (w5_arg7 m ρ c)

/-! ## The second gather and scatter-add, and the third region -/

set_option maxHeartbeats 2000000 in
theorem w7_v39 : W7 m ρ c (Proc.devRef .tc main_v39)
    = agg128 (out1 (argAt m c main_arg0) (argAt m c main_arg1) (argAt m c main_arg2) (argAt m c main_arg3)
        (argAt m c main_arg4)) (argAt m c main_arg1) := by
  show StableHlo.after hostOps2 (W6 m ρ c) (Proc.devRef .tc main_v39) = _
  after_results
  rw [w6_v28 m ρ c, w6_v3 m ρ c, w6_v6 m ρ c]
  rfl

theorem w7_keep (b : Ref sig .tc)
    (h : StableHlo.after hostOps2 (W6 m ρ c) (Proc.devRef .tc b) = W6 m ρ c (Proc.devRef .tc b)) :
    W7 m ρ c (Proc.devRef .tc b) = W6 m ρ c (Proc.devRef .tc b) := h

theorem w7_v15 : W7 m ρ c (Proc.devRef .tc main_v15) = facCol (argAt m c main_arg1) :=
  (w7_keep m ρ c main_v15 (by keep_host hostOps2)).trans (w6_v15 m ρ c)
theorem w7_arg5 : W7 m ρ c (Proc.devRef .tc main_arg5) = argAt m c main_arg5 :=
  (w7_keep m ρ c main_arg5 (by keep_host hostOps2)).trans (w6_arg5 m ρ c)
theorem w7_arg6 : W7 m ρ c (Proc.devRef .tc main_arg6) = argAt m c main_arg6 :=
  (w7_keep m ρ c main_arg6 (by keep_host hostOps2)).trans (w6_arg6 m ρ c)
theorem w7_arg7 : W7 m ρ c (Proc.devRef .tc main_arg7) = argAt m c main_arg7 :=
  (w7_keep m ρ c main_arg7 (by keep_host hostOps2)).trans (w6_arg7 m ρ c)

/-- The program's result as one term of its argument arrays. -/
def outK (a0 : FVec Ideal S50000x512 .f32) (a1 : IVec S2x800000 32) (a2 : FVec Ideal S512x256 .f32)
    (a3 : FVec Ideal S256 .f32) (a4 : FVec Ideal S256x128 .f32) (a5 : FVec Ideal S128 .f32)
    (a6 : FVec Ideal S128x7 .f32) (a7 : FVec Ideal S7 .f32) : FVec Ideal S50000x7 .f32 :=
  stage2 (agg128 (out1 a0 a1 a2 a3 a4) a1) a5 (facCol a1) a6 a7

/-- THE RESULT BUFFER after the run. -/
theorem result_value : W8 m ρ c (Proc.devRef .tc main_v40)
    = outK (argAt m c main_arg0) (argAt m c main_arg1) (argAt m c main_arg2) (argAt m c main_arg3)
        (argAt m c main_arg4) (argAt m c main_arg5) (argAt m c main_arg6) (argAt m c main_arg7) := by
  refine (result_eq m ρ c).trans ((final2 (V7 m ρ) c).trans ?_)
  have e39 : V7 m ρ c main_v39 = _ := w7_v39 m ρ c
  have e5 : V7 m ρ c main_arg5 = argAt m c main_arg5 := w7_arg5 m ρ c
  have e15 : V7 m ρ c main_v15 = facCol (argAt m c main_arg1) := w7_v15 m ρ c
  have e6 : V7 m ρ c main_arg6 = argAt m c main_arg6 := w7_arg6 m ρ c
  have e7 : V7 m ρ c main_arg7 = argAt m c main_arg7 := w7_arg7 m ρ c
  rw [e39, e5, e15, e6, e7]
  rfl

end Cert.KernelIdeal.Through

end
-- ==== Proof.Bridge.lean ====
/-
  The kernel's result term is the node-scaled network of the specification.

  The printed gather and scatter records are the row-gather and row-scatter dimension numbers; on the extended reals a
  change of float format is the identity, the host's accumulating scatter is the entry plus the sum of the updates that
  land on it, and the zeros it accumulates into are the literal zero; the factor column repeats the factor vector.
-/
import proofs.«107428_j55207509623327_2_alg».proof.Proof.KValue

noncomputable section

namespace Cert.KernelIdeal.AsNet

open Cert.KernelIdeal Cert.KernelIdeal.Gen Cert.KernelIdeal.Through Idealize.ShloMosaic Idealize.ShloMosaic.ValueIdx Cert.TwoLayer
  Cert.RowIndexing

/-- The well-formedness proofs of the printed records. -/
theorem wfG1 : GatherDims.WF (⟨2, ![50000, 256]⟩ : Shape) ⟨2, ![850000, 1]⟩ ⟨2, ![850000, 256]⟩ [1] [0] [] [0] [] 1 ![1, 256] :=
  gather_S50000x256_S850000x1_S850000x256_1_0_n_n_0_1_1256.wf
theorem wfG2 : GatherDims.WF (⟨2, ![50000, 128]⟩ : Shape) ⟨2, ![850000, 1]⟩ ⟨2, ![850000, 128]⟩ [1] [0] [] [0] [] 1 ![1, 128] :=
  gather_S50000x128_S850000x1_S850000x128_1_0_n_n_0_1_1128.wf
theorem wfS1 : ScatterDims.WF (⟨2, ![50000, 256]⟩ : Shape) ⟨2, ![850000, 1]⟩ ⟨2, ![850000, 256]⟩ [1] [0] [0] 1 :=
  scatter_S50000x256_S850000x1_S850000x256_1_0_0_1.wf
theorem wfS2 : ScatterDims.WF (⟨2, ![50000, 128]⟩ : Shape) ⟨2, ![850000, 1]⟩ ⟨2, ![850000, 128]⟩ [1] [0] [0] 1 :=
  scatter_S50000x128_S850000x1_S850000x128_1_0_0_1.wf

/-- A vector turned into a column reads, at `(r, u)`, the vector at `r`. -/
theorem col_apply {α : Type} (h1 : (⟨1, ![50000]⟩ : Shape).BroadcastsInDim ⟨2, ![50000, 1]⟩ (![0] : Fin 1 → Fin 2))
    (v : (⟨1, ![50000]⟩ : Shape).Idx → α) (r : Fin 50000) (u : Fin 1) :
    broadcastInDim ⟨2, ![50000, 1]⟩ ![0] h1 v (ix2 r u) = v (ix1 r) := by
  unfold broadcastInDim
  refine congrArg v (funext fun a => ?_)
  obtain rfl : a = 0 := Subsingleton.elim _ _
  rw [dif_neg (by decide)]
  rfl

theorem facCol_eq (a1 : IVec S2x800000 32) : facCol a1 = colOf (N := 50000) (facVec a1) := by
  funext j
  obtain ⟨r, u, rfl⟩ : ∃ (r : Fin 50000) (u : Fin 1), j = ix2 r u := ⟨j 0, j 1, eq_ix2 j⟩
  exact col_apply _ _ r u

/-- A change of float format is the identity on the extended reals. -/
theorem extf_id {s : Shape} (X : FVec Ideal s .bf16) (h) : (extf .f32 X h : FVec Ideal s .f32) = X := rfl

/-- The printed records are the row gather's and the row scatter's dimension numbers. -/
theorem g256_eq : gather_S50000x256_S850000x1_S850000x256_1_0_n_n_0_1_1256 = rowGatherDims 50000 850000 256 wfG1 := rfl
theorem g128_eq : gather_S50000x128_S850000x1_S850000x128_1_0_n_n_0_1_1128 = rowGatherDims 50000 850000 128 wfG2 := rfl
theorem s256_eq : scatter_S50000x256_S850000x1_S850000x256_1_0_0_1 = rowScatterDims 50000 850000 256 wfS1 := rfl
theorem s128_eq : scatter_S50000x128_S850000x1_S850000x128_1_0_0_1 = rowScatterDims 50000 850000 128 wfS2 := rfl

theorem zeros256 (i : S50000x256.Idx) :
    broadcastInDim S50000x256 ![] bcast_S_S50000x256 (constant (F := Ideal) S_ .f32 0x00000000#32) i = (0 : EReal) :=
  Ideal.ofBits_zero_f32

theorem zeros128 (i : S50000x128.Idx) :
    broadcastInDim S50000x128 ![] bcast_S_S50000x128 (constant (F := Ideal) S_ .f32 0x00000000#32) i = (0 : EReal) :=
  Ideal.ofBits_zero_f32

theorem agg256_eq (h : FVec Ideal S50000x256 .bf16) (a1 : IVec S2x800000 32) :
    agg256 h a1 = scat (N := 50000) (E := 850000) (F := 256) wfS1 (dstCol a1)
      (Host.gather (rowGatherDims 50000 850000 256 wfG1) h (srcwCol a1)) := by
  unfold agg256
  rw [extf_id, g256_eq, s256_eq]
  exact hostScatter_zeros wfS1 _ zeros256 (dstCol a1) _

theorem agg128_eq (h : FVec Ideal S50000x128 .bf16) (a1 : IVec S2x800000 32) :
    agg128 h a1 = scat (N := 50000) (E := 850000) (F := 128) wfS2 (dstCol a1)
      (Host.gather (rowGatherDims 50000 850000 128 wfG2) h (srcwCol a1)) := by
  unfold agg128
  rw [extf_id, g128_eq, s128_eq]
  exact hostScatter_zeros wfS2 _ zeros128 (dstCol a1) _

/-- The kernel's result term is the specification's node-scaled program. -/
theorem outK_eq (a0 : FVec Ideal S50000x512 .f32) (a1 : IVec S2x800000 32) (a2 : FVec Ideal S512x256 .f32)
    (a3 : FVec Ideal S256 .f32) (a4 : FVec Ideal S256x128 .f32) (a5 : FVec Ideal S128 .f32)
    (a6 : FVec Ideal S128x7 .f32) (a7 : FVec Ideal S7 .f32) :
    outK a0 a1 a2 a3 a4 a5 a6 a7
      = kerOut (N := 50000) (E := 850000) wfG1 wfG2 wfS1 wfS2 (facVec a1) (srcwCol a1) (dstCol a1) a0 a2 a3 a4 a5 a6 a7 := by
  unfold outK out1 kerOut
  rw [agg128_eq, agg256_eq, facCol_eq]

end Cert.KernelIdeal.AsNet

end
-- ==== Proof.RefIsNet.lean ====
/-
  The reference program, read as the network of the specification.

  The reference program is a straight line of array operations.  Read at an index, its result is: the dense product of
  the features with the first weights; a convolution in the EDGE-SCALED arrangement (gather the rows along the wrapped
  sources, multiply each by the product of the factor gathered at the wrapped source and at the wrapped destination,
  scatter-add at the raw destinations into zeros); the bias and the maximum with zero; the second dense product; the same
  convolution; the bias and the leaky rectifier; the head's dense product and bias.  The factor and the index columns are
  computed several times over by textually identical operations, which are therefore the same arrays.  Every step is
  the unfolding of one operation at an index; the only facts about indices are that the row `[1, F]` broadcast of a bias
  read at `(r, q)` is the bias at `q`, and that the `[E, 1]` then `[E, F]` broadcast of an edge vector read at `(e, f)` is
  the vector at `e`.
-/
import proofs.«107428_j55207509623327_2_alg».proof.Proof.RefRead
import proofs.«107428_j55207509623327_2_alg».proof.Proof.Spec

noncomputable section

namespace Cert.RefAsNet

open Idealize.ShloMosaic Idealize.ShloMosaic.ValueIdx Cert.ReferenceIdeal Cert.ReferenceIdeal.Gen Cert.ReferenceIdeal.ReadP
  Cert.TwoLayer Cert.RowIndexing

/-! ## Pieces stated over arbitrary arrays -/

/-- A scatter-add into zeros of the edge-scaled rows is the edge-scaled convolution. -/
theorem scatterAdd_eq_convR {N E F : Nat}
    (wfG : GatherDims.WF (⟨2, ![N, F]⟩ : Shape) ⟨2, ![E, 1]⟩ ⟨2, ![E, F]⟩ [1] [0] [] [0] [] 1 ![1, F])
    (wfV : GatherDims.WF (⟨1, ![N]⟩ : Shape) ⟨2, ![E, 1]⟩ ⟨1, ![E]⟩ [] [0] [] [0] [] 1 ![1])
    (wfS : ScatterDims.WF (⟨2, ![N, F]⟩ : Shape) ⟨2, ![E, 1]⟩ ⟨2, ![E, F]⟩ [1] [0] [0] 1)
    (z : Mat N F) (Dv : Vc N) (srcw dst dstw : ICol E) (h : Mat N F) (u : Mat E F)
    (hz : z = fun _ => (0 : EReal))
    (hu : u = fun j => Host.gather (rowGatherDims N E F wfG) h srcw j
      * (Host.gather (vecGatherDims N E wfV) Dv srcw (ix1 (j 0)) * Host.gather (vecGatherDims N E wfV) Dv dstw (ix1 (j 0)))) :
    Host.scatterAdd (F := Ideal) (φ := .f32) (rowScatterDims N E F wfS) z dst u = convR wfG wfV wfS Dv srcw dst dstw h := by
  subst hz hu
  rfl

/-- The leaky rectifier as the reference spells it: a select on `y ≥ 0` between `y` and `c · y`. -/
theorem select_eq_leaky (y z c : EReal) (hz : z = Ideal.ofBits .f32 0x00000000#32) (hc : c = Ideal.ofBits .f32 0x3C23D70A#32) :
    Scalar.select (FloatOps.cmpf (F := Ideal) (φ := .f32) .oge y z) y (FloatOps.mulf (F := Ideal) (φ := .f32) c y) = leaky y := by
  subst hz hc
  rfl

/-- The maximum with zero as the reference spells it. -/
theorem maximumf_eq_relu (y z : EReal) (hz : z = Ideal.ofBits .f32 0x00000000#32) :
    FloatOps.maximumf (F := Ideal) (φ := .f32) y z = relu y := by
  subst hz
  rfl

/-- The updates of a convolution: the gathered rows times a coefficient that, at `(e, f)`, is the product of the factor
    gathered at the wrapped source and at the wrapped destination of edge `e`. -/
theorem updates_eq {N E F : Nat}
    (wfG : GatherDims.WF (⟨2, ![N, F]⟩ : Shape) ⟨2, ![E, 1]⟩ ⟨2, ![E, F]⟩ [1] [0] [] [0] [] 1 ![1, F])
    (wfV : GatherDims.WF (⟨1, ![N]⟩ : Shape) ⟨2, ![E, 1]⟩ ⟨1, ![E]⟩ [] [0] [] [0] [] 1 ![1])
    (h : Mat N F) (Dv : Vc N) (srcw dstw : ICol E) (coef : Mat E F)
    (hcoef : ∀ (e : Fin E) (f : Fin F), coef (ix2 e f)
      = Host.gather (vecGatherDims N E wfV) Dv srcw (ix1 e) * Host.gather (vecGatherDims N E wfV) Dv dstw (ix1 e)) :
    mulf (F := Ideal) (φ := .f32) (Host.gather (rowGatherDims N E F wfG) h srcw) coef
      = fun j => Host.gather (rowGatherDims N E F wfG) h srcw j
        * (Host.gather (vecGatherDims N E wfV) Dv srcw (ix1 (j 0)) * Host.gather (vecGatherDims N E wfV) Dv dstw (ix1 (j 0))) := by
  funext j
  obtain ⟨e, f, rfl⟩ : ∃ (e : Fin E) (f : Fin F), j = ix2 e f := ⟨j 0, j 1, eq_ix2 j⟩
  show Host.gather (rowGatherDims N E F wfG) h srcw (ix2 e f) * coef (ix2 e f) = _
  rw [hcoef]
  rfl

/-- A sum over the shared axis, its operands read at indices that are `(r, c)` and `(c, q)`, is the dense product at `(r, q)`. -/
theorem sum_eq_dense {a n b : Nat} (A : Mat a n) (B : Mat n b) (r : Fin a) (q : Fin b)
    (li : Fin n → (⟨2, ![a, n]⟩ : Shape).Idx) (ri : Fin n → (⟨2, ![n, b]⟩ : Shape).Idx)
    (hl : ∀ c, li c = ix2 r c) (hr : ∀ c, ri c = ix2 c q) :
    ∑ c : Fin n, A (li c) * B (ri c) = dense A B (ix2 r q) := by
  unfold dense
  exact Finset.sum_congr rfl fun c _ => by rw [hl, hr]; rfl

/-- Two rank-2 indices with equal coordinates are equal; likewise rank 1. -/
theorem idx2_ext {a b : Nat} (f g : (⟨2, ![a, b]⟩ : Shape).Idx) (h0 : f 0 = g 0) (h1 : f 1 = g 1) : f = g := by
  funext d; match d with | ⟨0, _⟩ => exact h0 | ⟨1, _⟩ => exact h1
theorem idx1_ext {a : Nat} (f g : (⟨1, ![a]⟩ : Shape).Idx) (h0 : f 0 = g 0) : f = g := by
  funext d; match d with | ⟨0, _⟩ => exact h0

/-! ## The reference's arrays -/

section Reference

variable (x0 : (⟨S50000x512, .f32⟩ : BufTy).Contents (Elt Ideal)) (x1 : (⟨S2x800000, .i32⟩ : BufTy).Contents (Elt Ideal))
  (x2 : (⟨S512x256, .f32⟩ : BufTy).Contents (Elt Ideal)) (x3 : (⟨S256, .f32⟩ : BufTy).Contents (Elt Ideal))
  (x4 : (⟨S256x128, .f32⟩ : BufTy).Contents (Elt Ideal)) (x5 : (⟨S128, .f32⟩ : BufTy).Contents (Elt Ideal))
  (x6 : (⟨S128x7, .f32⟩ : BufTy).Contents (Elt Ideal)) (x7 : (⟨S7, .f32⟩ : BufTy).Contents (Elt Ideal))

/-- The reference's dimension numbers are the row gather's, the vector gather's and the row scatter's. -/
theorem gR1_eq : gather_S50000x256_S850000x1_S850000x256_1_0_n_n_0_1_1256
    = rowGatherDims 50000 850000 256 Facts₀.gather_S50000x256_S850000x1_S850000x256_1_0_n_n_0_1_1256_wf := rfl
theorem gR2_eq : gather_S50000x128_S850000x1_S850000x128_1_0_n_n_0_1_1128
    = rowGatherDims 50000 850000 128 Facts₀.gather_S50000x128_S850000x1_S850000x128_1_0_n_n_0_1_1128_wf := rfl
theorem gV_eq : gather_S50000_S850000x1_S850000_n_0_n_n_0_1_1
    = vecGatherDims 50000 850000 Facts₀.gather_S50000_S850000x1_S850000_n_0_n_n_0_1_1_wf := rfl
theorem sR1_eq : scatter_S50000x256_S850000x1_S850000x256_1_0_0_1
    = rowScatterDims 50000 850000 256 Facts₀.scatter_S50000x256_S850000x1_S850000x256_1_0_0_1_wf := rfl
theorem sR2_eq : scatter_S50000x128_S850000x1_S850000x128_1_0_0_1
    = rowScatterDims 50000 850000 128 Facts₀.scatter_S50000x128_S850000x1_S850000x128_1_0_0_1_wf := rfl

/-- The index columns and the factor are computed several times by identical operations. -/
theorem v21_eq : val_main_v21 (F := Ideal) x1 = val_main_v36 (F := Ideal) x1 := rfl
theorem v62_eq : val_main_v62 (F := Ideal) x1 = val_main_v36 (F := Ideal) x1 := rfl
theorem v77_eq : val_main_v77 (F := Ideal) x1 = val_main_v36 (F := Ideal) x1 := rfl
theorem v69_eq : val_main_v69 (F := Ideal) x1 = val_main_v28 (F := Ideal) x1 := rfl
theorem v83_eq : val_main_v83 (F := Ideal) x1 = val_main_v42 (F := Ideal) x1 := rfl

end Reference

section Layer1

variable (x0 : (⟨S50000x512, .f32⟩ : BufTy).Contents (Elt Ideal)) (x1 : (⟨S2x800000, .i32⟩ : BufTy).Contents (Elt Ideal))
  (x2 : (⟨S512x256, .f32⟩ : BufTy).Contents (Elt Ideal)) (x3 : (⟨S256, .f32⟩ : BufTy).Contents (Elt Ideal))

theorem v56_eq : val_main_v56 (F := Ideal) x1 = val_main_v15 (F := Ideal) x1 := rfl

/-- The first dense product. -/
theorem v7_eq : val_main_v7 (F := Ideal) x0 x2 = dense (a := 50000) (n := 512) (b := 256) x0 x2 := by
  funext i
  obtain ⟨r, q, rfl⟩ : ∃ (r : Fin 50000) (q : Fin 256), i = ix2 r q := ⟨i 0, i 1, eq_ix2 i⟩
  rw [val_main_v7_apply]
  exact sum_eq_dense x0 x2 r q _ _ (fun c => idx2_ext _ _ rfl rfl) (fun c => idx2_ext _ _ rfl rfl)

/-- The zeros the first scatter adds into. -/
theorem v41_eq : val_main_v41 (F := Ideal) = fun _ => (0 : EReal) := by
  funext i
  rw [val_main_v41_apply, val_main_cst_8_apply]
  exact Ideal.ofBits_zero_f32

/-- The first layer's edge coefficient, broadcast along the feature axis, at `(e, f)`. -/
theorem v39_at (e : Fin 850000) (f : Fin 256) : val_main_v39 (F := Ideal) x1 (ix2 e f)
    = Host.gather (vecGatherDims 50000 850000 Facts₀.gather_S50000_S850000x1_S850000_n_0_n_n_0_1_1_wf)
        (val_main_v15 (F := Ideal) x1) (val_main_v36 (F := Ideal) x1) (ix1 e)
      * Host.gather (vecGatherDims 50000 850000 Facts₀.gather_S50000_S850000x1_S850000_n_0_n_n_0_1_1_wf)
        (val_main_v15 (F := Ideal) x1) (val_main_v28 (F := Ideal) x1) (ix1 e) := by
  rw [val_main_v39_apply, val_main_v38_apply,
    show idx_main_v38 (idx_main_v39 (ix2 e f)) = ix1 e from idx1_ext _ _ rfl, val_main_v30_apply]
  unfold val_main_v22 val_main_v29
  rw [v21_eq, gV_eq]
  rfl

/-- The first convolution. -/
theorem v43_eq : val_main_v43 (F := Ideal) x0 x1 x2
    = convR (N := 50000) (E := 850000) (F := 256) Facts₀.gather_S50000x256_S850000x1_S850000x256_1_0_n_n_0_1_1256_wf
        Facts₀.gather_S50000_S850000x1_S850000_n_0_n_n_0_1_1_wf Facts₀.scatter_S50000x256_S850000x1_S850000x256_1_0_0_1_wf
        (val_main_v15 (F := Ideal) x1) (val_main_v36 (F := Ideal) x1) (val_main_v42 (F := Ideal) x1) (val_main_v28 (F := Ideal) x1)
        (dense x0 x2) := by
  unfold val_main_v43
  rw [sR1_eq]
  refine scatterAdd_eq_convR _ _ _ _ _ _ _ _ _ _ v41_eq ?_
  unfold val_main_v40 val_main_v37
  rw [v7_eq, gR1_eq]
  exact updates_eq _ _ _ _ _ _ _ (v39_at x1)

end Layer1

/-! ## The two convolution operators and the two activations of the reference -/

section Network

variable (x0 : (⟨S50000x512, .f32⟩ : BufTy).Contents (Elt Ideal)) (x1 : (⟨S2x800000, .i32⟩ : BufTy).Contents (Elt Ideal))
  (x2 : (⟨S512x256, .f32⟩ : BufTy).Contents (Elt Ideal)) (x3 : (⟨S256, .f32⟩ : BufTy).Contents (Elt Ideal))
  (x4 : (⟨S256x128, .f32⟩ : BufTy).Contents (Elt Ideal)) (x5 : (⟨S128, .f32⟩ : BufTy).Contents (Elt Ideal))
  (x6 : (⟨S128x7, .f32⟩ : BufTy).Contents (Elt Ideal)) (x7 : (⟨S7, .f32⟩ : BufTy).Contents (Elt Ideal))

/-- The reference's first and second convolution: the edge-scaled arrangement at the reference's own factor,
    wrapped sources, raw destinations and wrapped destinations. -/
abbrev conv1 : Mat 50000 256 → Mat 50000 256 :=
  convR (N := 50000) (E := 850000) (F := 256) Facts₀.gather_S50000x256_S850000x1_S850000x256_1_0_n_n_0_1_1256_wf
    Facts₀.gather_S50000_S850000x1_S850000_n_0_n_n_0_1_1_wf Facts₀.scatter_S50000x256_S850000x1_S850000x256_1_0_0_1_wf
    (val_main_v15 (F := Ideal) x1) (val_main_v36 (F := Ideal) x1) (val_main_v42 (F := Ideal) x1) (val_main_v28 (F := Ideal) x1)
abbrev conv2 : Mat 50000 128 → Mat 50000 128 :=
  convR (N := 50000) (E := 850000) (F := 128) Facts₀.gather_S50000x128_S850000x1_S850000x128_1_0_n_n_0_1_1128_wf
    Facts₀.gather_S50000_S850000x1_S850000_n_0_n_n_0_1_1_wf Facts₀.scatter_S50000x128_S850000x1_S850000x128_1_0_0_1_wf
    (val_main_v15 (F := Ideal) x1) (val_main_v36 (F := Ideal) x1) (val_main_v42 (F := Ideal) x1) (val_main_v28 (F := Ideal) x1)

/-- The first layer's output after bias and rectifier; the second layer's after bias and leaky rectifier. -/
abbrev act1 : Mat 50000 256 := fun k' => relu (conv1 x1 (dense x0 x2) k' + x3 (ix1 (k' 1)))
abbrev act2 : Mat 50000 128 := fun k => leaky (conv2 x1 (dense (act1 x0 x1 x2 x3) x4) k + x5 (ix1 (k 1)))

theorem v43_eq' : val_main_v43 (F := Ideal) x0 x1 x2 = conv1 x1 (dense x0 x2) := v43_eq x0 x1 x2

/-- A bias `[F]` broadcast to `[1, F]` and then to `[N, F]`, at `(r, q)`, is the bias at `q`. -/
theorem v45_at (r : Fin 50000) (q : Fin 256) : val_main_v45 (F := Ideal) x3 (ix2 r q) = x3 (ix1 q) := by
  rw [val_main_v45_apply, val_main_v44_apply]
  exact congrArg x3 (idx1_ext _ _ rfl)
theorem v86_at (r : Fin 50000) (q : Fin 128) : val_main_v86 (F := Ideal) x5 (ix2 r q) = x5 (ix1 q) := by
  rw [val_main_v86_apply, val_main_v85_apply]
  exact congrArg x5 (idx1_ext _ _ rfl)
theorem v95_at (r : Fin 50000) (q : Fin 7) : val_main_v95 (F := Ideal) x7 (ix2 r q) = x7 (ix1 q) := by
  rw [val_main_v95_apply, val_main_v94_apply]
  exact congrArg x7 (idx1_ext _ _ rfl)

/-- The broadcast constants at an index. -/
theorem call1_v0_at (i : S50000x256.Idx) : val_main_call1_v0 (F := Ideal) i = Ideal.ofBits .f32 0x00000000#32 := by
  rw [val_main_call1_v0_apply, val_main_call1_cst_apply]; rfl
theorem v88_at (i : S50000x128.Idx) : val_main_v88 (F := Ideal) i = Ideal.ofBits .f32 0x00000000#32 := by
  rw [val_main_v88_apply, val_main_cst_20_apply]; rfl
theorem v90_at (i : S50000x128.Idx) : val_main_v90 (F := Ideal) i = Ideal.ofBits .f32 0x3C23D70A#32 := by
  rw [val_main_v90_apply, val_main_cst_21_apply]; rfl
theorem v82_eq : val_main_v82 (F := Ideal) = fun _ => (0 : EReal) := by
  funext i
  rw [val_main_v82_apply, val_main_cst_19_apply]
  exact Ideal.ofBits_zero_f32

/-- The first activation. -/
theorem v47_eq : val_main_v47 (F := Ideal) x0 x1 x2 x3 = act1 x0 x1 x2 x3 := by
  funext k'
  obtain ⟨r, q, rfl⟩ : ∃ (r : Fin 50000) (q : Fin 256), k' = ix2 r q := ⟨k' 0, k' 1, eq_ix2 k'⟩
  rw [val_main_v47_apply, val_main_v46_apply, v43_eq', v45_at, call1_v0_at, Ideal.addf_def]
  exact maximumf_eq_relu _ _ rfl

/-- The second dense product. -/
theorem v48_eq : val_main_v48 (F := Ideal) x0 x1 x2 x3 x4 = dense (act1 x0 x1 x2 x3) x4 := by
  funext i
  obtain ⟨r, q, rfl⟩ : ∃ (r : Fin 50000) (q : Fin 128), i = ix2 r q := ⟨i 0, i 1, eq_ix2 i⟩
  rw [val_main_v48_apply, v47_eq]
  exact sum_eq_dense (act1 x0 x1 x2 x3) x4 r q _ _ (fun c => idx2_ext _ _ rfl rfl) (fun c => idx2_ext _ _ rfl rfl)

/-- The second layer's edge coefficient, broadcast along the feature axis, at `(e, f)`. -/
theorem v80_at (e : Fin 850000) (f : Fin 128) : val_main_v80 (F := Ideal) x1 (ix2 e f)
    = Host.gather (vecGatherDims 50000 850000 Facts₀.gather_S50000_S850000x1_S850000_n_0_n_n_0_1_1_wf)
        (val_main_v15 (F := Ideal) x1) (val_main_v36 (F := Ideal) x1) (ix1 e)
      * Host.gather (vecGatherDims 50000 850000 Facts₀.gather_S50000_S850000x1_S850000_n_0_n_n_0_1_1_wf)
        (val_main_v15 (F := Ideal) x1) (val_main_v28 (F := Ideal) x1) (ix1 e) := by
  rw [val_main_v80_apply, val_main_v79_apply,
    show idx_main_v79 (idx_main_v80 (ix2 e f)) = ix1 e from idx1_ext _ _ rfl, val_main_v71_apply]
  unfold val_main_v63 val_main_v70
  rw [v56_eq, v62_eq, v69_eq, gV_eq]
  rfl

/-- The second convolution. -/
theorem v84_eq : val_main_v84 (F := Ideal) x0 x1 x2 x3 x4 = conv2 x1 (dense (act1 x0 x1 x2 x3) x4) := by
  unfold val_main_v84
  rw [sR2_eq, v83_eq]
  refine scatterAdd_eq_convR _ _ _ _ _ _ _ _ _ _ v82_eq ?_
  unfold val_main_v81 val_main_v78
  rw [v48_eq, gR2_eq, v77_eq]
  exact updates_eq _ _ _ _ _ _ _ (v80_at x1)

/-- The second activation. -/
theorem v92_eq : val_main_v92 (F := Ideal) x0 x1 x2 x3 x4 x5 = act2 x0 x1 x2 x3 x4 x5 := by
  funext k
  obtain ⟨r, q, rfl⟩ : ∃ (r : Fin 50000) (q : Fin 128), k = ix2 r q := ⟨k 0, k 1, eq_ix2 k⟩
  rw [val_main_v92_apply, val_main_v89_apply, val_main_v91_apply, val_main_v87_apply, v84_eq, v86_at, v88_at, v90_at,
    Ideal.addf_def]
  exact select_eq_leaky _ _ _ rfl rfl

/-- The head's dense product. -/
theorem v93_eq : val_main_v93 (F := Ideal) x0 x1 x2 x3 x4 x5 x6 = dense (act2 x0 x1 x2 x3 x4 x5) x6 := by
  funext i
  obtain ⟨r, q, rfl⟩ : ∃ (r : Fin 50000) (q : Fin 7), i = ix2 r q := ⟨i 0, i 1, eq_ix2 i⟩
  rw [val_main_v93_apply, v92_eq]
  exact sum_eq_dense (act2 x0 x1 x2 x3 x4 x5) x6 r q _ _ (fun c => idx2_ext _ _ rfl rfl) (fun c => idx2_ext _ _ rfl rfl)

/-- THE REFERENCE IS THE NETWORK over its own edge-scaled convolutions. -/
theorem ref_is_net : val_main_v96 (F := Ideal) x0 x1 x2 x3 x4 x5 x6 x7
    = net (N := 50000) (conv1 x1) (conv2 x1) x0 x2 x3 x4 x5 x6 x7 := by
  funext i
  obtain ⟨r, q, rfl⟩ : ∃ (r : Fin 50000) (q : Fin 7), i = ix2 r q := ⟨i 0, i 1, eq_ix2 i⟩
  rw [val_main_v96_apply, v93_eq, v95_at, Ideal.addf_def]
  rfl

end Network

end Cert.RefAsNet

end
-- ==== Proof.FiniteArgs.lean ====
/-
  The precondition "every float argument has all its entries of finite magnitude", read back.

  The predicate is printed as a chain of conjunctions, one conjunct per float argument, each conjunct the
  reduction by "and" over ALL axes of the one-bit array `|x| < +∞`.  The chain equals 1 exactly when every conjunct
  does; a reduction by "and" into a single result that is 1 met a 1 at every entry; and over the extended reals
  `max x (-x) < ⊤` excludes `x = ⊤` and `x = ⊥`, so `x` is a real number.  Only the node features (argument 0), the two
  layers' weights (arguments 2 and 4) and the first layer's bias (argument 3) are read off here.
-/
import proofs.«107428_j55207509623327_2_alg».proof.Pre_finite_inputs
import Idealize.ShloMosaic.PureOps.Ideal
import Idealize.ShloMosaic.Lib.ReduceAll
import Idealize.ShloMosaic.Lib.ValueIdx
import Idealize.ShloMosaic.Lib.IdealHost
import proofs.«107428_j55207509623327_2_alg».proof.Proof.LibGcnLayer

noncomputable section

namespace Cert.FiniteArgs

open Idealize.ShloMosaic Cert.GcnAlgebra Cert.Pre_finite_inputs

/-- The rank-0 shape has one index. -/
instance subsingleton_scalar_idx : Subsingleton S_.Idx := ⟨fun a b => funext fun d => d.elim0⟩

/-- The f32 pattern `0x7F800000` is `+∞`. -/
theorem ofBits_inf_f32 : Ideal.ofBits .f32 0x7F800000#32 = (⊤ : EReal) := by simp [Ideal.ofBits, Ideal.ieee]

/-- An extended real whose magnitude `max x (-x)` compares below `+∞` is a real number. -/
theorem isFin_of_abs_lt_inf (x : EReal)
    (h : Ideal.cmp .olt (max x (-x)) (Ideal.ofBits .f32 0x7F800000#32) = 1#1) : IsFin x := by
  rw [ofBits_inf_f32] at h
  unfold Ideal.cmp at h
  induction x using EReal.rec with
  | bot => simp at h
  | coe r => exact ⟨r, rfl⟩
  | top => simp at h

/-- One conjunct: `all (|a| < +∞) = 1` makes every entry of `a` a real number. -/
theorem all_fin {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) :
    ∀ i, IsFin (a i) := fun i => by
  have hi := Host.reduce_andi_all _ _ hr hu ValueIdx.ix0 e i
  rw [ValueIdx.cmpf_apply, ValueIdx.broadcastInDim_scalar_apply] at hi
  exact isFin_of_abs_lt_inf (a i) hi

/-- The precondition, decoded for arguments 0, 2, 3 and 4: every entry is a real number. -/
theorem fin_args [Cert.Pre_finite_inputs.Facts] (a0 : FVec Ideal S50000x512 .f32) (a1 : IVec S2x800000 32)
    (a2 : FVec Ideal S512x256 .f32) (a3 : FVec Ideal S256 .f32) (a4 : FVec Ideal S256x128 .f32)
    (a5 : FVec Ideal S128 .f32) (a6 : FVec Ideal S128x7 .f32) (a7 : FVec Ideal S7 .f32)
    (h : Cert.Pre_finite_inputs.fn (F := Ideal) a0 a1 a2 a3 a4 a5 a6 a7 = fun _ => 1#1) :
    (∀ i, IsFin (a0 i)) ∧ (∀ i, IsFin (a2 i)) ∧ (∀ i, IsFin (a3 i)) ∧ (∀ i, IsFin (a4 i)) := by
  have h0 := congrFun h ValueIdx.ix0
  dsimp only [Cert.Pre_finite_inputs.fn, Cert.Pre_finite_inputs.fn_part1] at h0
  -- the chain is `((((((c0 ∧ c2) ∧ c3) ∧ c4) ∧ c5) ∧ c6) ∧ c7)`: peel the conjuncts from the outside
  have split : ∀ (x y : IVec S_ 1), andi x y ValueIdx.ix0 = 1#1 → x ValueIdx.ix0 = 1#1 ∧ y ValueIdx.ix0 = 1#1 :=
    fun x y hxy => IntOp.andi_eq_one.1 hxy
  obtain ⟨h0, -⟩ := split _ _ h0
  obtain ⟨h0, -⟩ := split _ _ h0
  obtain ⟨h0, -⟩ := split _ _ h0
  obtain ⟨h0, e4⟩ := split _ _ h0
  obtain ⟨h0, e3⟩ := split _ _ h0
  obtain ⟨e0, e2⟩ := split _ _ h0
  exact ⟨all_fin a0 _ _ _ e0, all_fin a2 _ _ _ e2, all_fin a3 _ _ _ e3, all_fin a4 _ _ _ e4⟩

end Cert.FiniteArgs

end
-- ==== Proof.WrapIndex.lean ====
/-
  Wrapping a negative index and then clamping it keeps an index that already names a row.

  `x[idx]` with `N` rows first wraps the index, `idx < 0 ? idx + N : idx` (a comparison with a broadcast `0`, an
  addition of a broadcast `N`, a select), turns the wrapped vector into a column `[E, 1]`, and the gather then reads the
  column's entry signed and cuts it to `[0, N - 1]`.  If the entry at position `e`, read signed, is a natural number
  `n < N`, then it is not negative, so the select keeps it, and the cut changes nothing: the row read is `n`.
  Here `E = 850000` and `N = 50000`, as literals.
-/
import Idealize.ShloMosaic.PureOps
import Idealize.ShloMosaic.Lib.ValueIdx
import Idealize.ShloMosaic.Lib.IdealHost
import proofs.«107428_j55207509623327_2_alg».proof.Proof.LibRowGather

noncomputable section

namespace Cert.WrapIndex

open Idealize.ShloMosaic Idealize.ShloMosaic.ValueIdx

/-- The edge vector's shape, the index column's shape, the scalar shape. -/
abbrev SE : Shape := ⟨1, ![850000]⟩
abbrev SE1 : Shape := ⟨2, ![850000, 1]⟩
abbrev S0 : Shape := ⟨0, ![]⟩

/-- A vector turned into a column reads, at `(e, 0)`, the vector at `e`. -/
theorem col_apply {α : Type} (h1 : SE.BroadcastsInDim SE1 (![0] : Fin 1 → Fin SE1.rank)) (v : SE.Idx → α)
    (e : Fin 850000) : broadcastInDim SE1 ![0] h1 v (ix2 e (0 : Fin 1)) = v (ix1 e) := by
  unfold broadcastInDim
  refine congrArg v (funext fun a => ?_)
  obtain rfl : a = 0 := Subsingleton.elim _ _
  rw [dif_neg (by decide)]
  rfl

/-- The wrapped vector: `v < 0 ? v + 50000 : v`, entry by entry. -/
abbrev wrap (h2 h3 : S0.BroadcastsInDim SE (![] : Fin 0 → Fin SE.rank)) (v : IVec SE 32) : IVec SE 32 :=
  select (cmpi .slt v (broadcastInDim SE ![] h2 (constantI S0 32 0#32)))
    (addi v (broadcastInDim SE ![] h3 (constantI S0 32 50000#32))) v

/-- An entry that read signed is a natural number is kept by the wrap. -/
theorem wrap_apply_of_nonneg (h2 h3) (v : IVec SE 32) (e : Fin 850000) (hv : 0 ≤ (v (ix1 e)).toInt) :
    wrap h2 h3 v (ix1 e) = v (ix1 e) := by
  show Scalar.select (IntOp.cmpi .slt (v (ix1 e)) (broadcastInDim SE ![] h2 (constantI S0 32 0#32) (ix1 e)))
    (IntOp.addi (v (ix1 e)) (broadcastInDim SE ![] h3 (constantI S0 32 50000#32) (ix1 e))) (v (ix1 e)) = _
  rw [broadcastInDim_scalar_apply h2]
  have hc : IntOp.cmpi .slt (v (ix1 e)) (constantI S0 32 0#32 ix0) = 0#1 := by
    show BitVec.ofBool ((v (ix1 e)).slt 0#32) = 0#1
    have : (v (ix1 e)).slt 0#32 = false := by
      rw [BitVec.slt_eq_decide]
      simp only [BitVec.toInt_zero, decide_eq_false_iff_not, not_lt]
      exact hv
    rw [this]; rfl
  rw [hc]
  rfl

/-- A source (or destination) entry that already names row `n` is neither wrapped nor clamped: the gather reads row `n`. -/
theorem wrap_keeps (h1 h1' : SE.BroadcastsInDim SE1 (![0] : Fin 1 → Fin SE1.rank))
    (h2 h3 : S0.BroadcastsInDim SE (![] : Fin 0 → Fin SE.rank)) (d : IVec SE 32) (e : Fin 850000) (n : Fin 50000)
    (h : ((broadcastInDim SE1 ![0] h1 d) (ix2 e (0 : Fin 1))).toInt = (n.val : Int)) :
    Cert.RowIndexing.clampRow (N := 50000) (by decide) (broadcastInDim SE1 ![0] h1' (wrap h2 h3 d)) e = n := by
  rw [col_apply] at h
  refine Fin.ext ?_
  show min ((broadcastInDim SE1 ![0] h1' (wrap h2 h3 d)) (ix2 e (0 : Fin 1))).toInt.toNat (50000 - 1) = n.val
  rw [col_apply, wrap_apply_of_nonneg h2 h3 d e (by rw [h]; exact Int.natCast_nonneg _), h]
  have := n.isLt
  omega

end Cert.WrapIndex

end
-- ==== Proof.DegreeFactor.lean ====
/-
  The per-node normalisation factor of a graph convolution is a real number at every node.

  The degree of node `k` is a scatter-add of the constant `1` over the edges into an array of zeros:
  `deg k = 0 + Σ_{edges landing on k} 1`, a finite sum of real numbers, hence a real number (in fact a natural number,
  the count of those edges).  The factor is `deg k > 0 ? 1 / sqrt (deg k) : 0`.  Where the comparison holds, `deg k` is a
  POSITIVE real, whose inverse square root is a real; elsewhere the factor is the literal `0`.  So no factor is an
  infinity, which is what lets products with it distribute over sums.
  The statement takes the scatter's dimension numbers, the index column and the shape side conditions as arbitrary
  arguments: nothing about WHERE an edge lands is used.  `N = 50000` nodes and `E = 850000` edges, as literals.
-/
import Idealize.ShloMosaic.PureOps.Ideal
import Idealize.ShloMosaic.PureOps.Ideal.Laws
import Idealize.ShloMosaic.PureOps.Contract
import Idealize.ShloMosaic.Lib.ValueIdx
import Idealize.ShloMosaic.Lib.IdealHost
import proofs.«107428_j55207509623327_2_alg».proof.Proof.LibGcnLayer

noncomputable section

namespace Cert.DegreeFactor

open Idealize.ShloMosaic Idealize.ShloMosaic.ValueIdx Cert.GcnAlgebra

/-- The node vector's shape, the edge vector's shape, the index column's shape, the scalar shape. -/
abbrev SN : Shape := ⟨1, ![50000]⟩
abbrev SE : Shape := ⟨1, ![850000]⟩
abbrev SE1 : Shape := ⟨2, ![850000, 1]⟩
abbrev S0 : Shape := ⟨0, ![]⟩

/-- The f32 pattern `0x3F800000` is the extended real one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- A scatter-add of real updates into real entries has real entries: an entry plus a finite sum of reals. -/
theorem scatterAdd_isFin {s si su : Shape} {w : Nat} (d : ScatterDims s si su) (x : FVec Ideal s .f32) (idx : IVec si w)
    (u : FVec Ideal su .f32) (hx : ∀ i, IsFin (x i)) (hu : ∀ j, IsFin (u j)) (k : s.Idx) :
    IsFin (Host.scatterAdd d x idx u k) := by
  show IsFin (Ideal.hostScatterAdd d x idx u k)
  unfold Ideal.hostScatterAdd
  exact IsFin.add (hx k) (IsFin.sum _ _ hu)

/-- The degree vector: ones scattered (added) into zeros at the index column. -/
abbrev deg (sd : ScatterDims SN SE1 SE) (hb0 : S0.BroadcastsInDim SN (![] : Fin 0 → Fin SN.rank))
    (hb1 : S0.BroadcastsInDim SE (![] : Fin 0 → Fin SE.rank)) (idxcol : IVec SE1 32) : FVec Ideal SN .f32 :=
  Host.scatterAdd sd (broadcastInDim SN ![] hb0 (constant S0 .f32 0x00000000#32)) idxcol
    (broadcastInDim SE ![] hb1 (constant S0 .f32 0x3F800000#32))

/-- Every degree is a real number: zero plus a finite sum of ones. -/
theorem deg_isFin (sd : ScatterDims SN SE1 SE) (hb0 hb1) (idxcol : IVec SE1 32) (k : SN.Idx) :
    IsFin (deg sd hb0 hb1 idxcol k) :=
  scatterAdd_isFin sd _ idxcol _
    (fun i => ⟨0, (broadcastInDim_scalar_apply hb0 _ i).trans Ideal.ofBits_zero_f32⟩)
    (fun j => ⟨1, (broadcastInDim_scalar_apply hb1 _ j).trans ofBits_one_f32⟩) k

/-- On one value: `x > 0 ? 1 / sqrt x : 0` of a real number is a real number. -/
theorem select_rsqrt_isFin (x z0 z1 : EReal) (hx : IsFin x) (h0 : z0 = 0) (h1 : z1 = 0) :
    IsFin (Scalar.select (Ideal.cmp .ogt x z0) (Ideal.rsqrt x) z1) := by
  subst h0 h1
  obtain ⟨r, rfl⟩ := hx
  by_cases hpos : (0 : EReal) < (r : EReal)
  · have hc : Ideal.cmp .ogt (r : EReal) 0 = 1#1 := by
      show BitVec.ofBool (decide ((0 : EReal) < (r : EReal))) = 1#1
      rw [decide_eq_true hpos]; rfl
    rw [hc, select_one]
    exact IsFin.rsqrt_of_pos (by exact_mod_cast hpos)
  · have hc : Ideal.cmp .ogt (r : EReal) 0 = 0#1 := by
      show BitVec.ofBool (decide ((0 : EReal) < (r : EReal))) = 0#1
      rw [decide_eq_false hpos]; rfl
    rw [hc, select_zero]
    exact IsFin.zero

/-- On a vector, at one index: `select (x > z0) (rsqrt x) z1` is a real number where `x` is one and `z0`, `z1` are zero. -/
theorem select_rsqrt_vec_isFin {s : Shape} (dg z0 z1 : FVec Ideal s .f32) (k : s.Idx) (hd : IsFin (dg k))
    (h0 : z0 k = (0 : EReal)) (h1 : z1 k = (0 : EReal)) :
    IsFin (select (cmpf .ogt dg z0) (Host.rsqrt dg) z1 k) := by
  show IsFin (Scalar.select (FloatOps.cmpf .ogt (dg k) (z0 k)) (FloatOps.hostUnary .rsqrt (dg k)) (z1 k))
  rw [Ideal.hostUnary_rsqrt_def, Ideal.cmpf_def]
  exact select_rsqrt_isFin _ _ _ hd h0 h1

/-- The factor vector: the inverse square root of the degree where the degree is positive, zero elsewhere. -/
abbrev factor (sd : ScatterDims SN SE1 SE) (hb0 hb0' hb0'' : S0.BroadcastsInDim SN (![] : Fin 0 → Fin SN.rank))
    (hb1 : S0.BroadcastsInDim SE (![] : Fin 0 → Fin SE.rank)) (idxcol : IVec SE1 32) : FVec Ideal SN .f32 :=
  select (cmpf .ogt (deg sd hb0 hb1 idxcol) (broadcastInDim SN ![] hb0' (constant S0 .f32 0x00000000#32)))
    (Host.rsqrt (deg sd hb0 hb1 idxcol)) (broadcastInDim SN ![] hb0'' (id (constant S0 .f32 0x00000000#32)))

/-- Every node's factor is a real number. -/
theorem factor_isFin (sd : ScatterDims SN SE1 SE) (hb0 hb0' hb0'' hb1) (idxcol : IVec SE1 32) (k : SN.Idx) :
    IsFin (factor sd hb0 hb0' hb0'' hb1 idxcol k) :=
  select_rsqrt_vec_isFin (deg sd hb0 hb1 idxcol) _ _ k (deg_isFin sd hb0 hb1 idxcol k)
    ((broadcastInDim_scalar_apply hb0' _ k).trans Ideal.ofBits_zero_f32)
    ((broadcastInDim_scalar_apply hb0'' _ k).trans Ideal.ofBits_zero_f32)

end Cert.DegreeFactor

end
-- ==== Proof.Equal.lean ====
/-
  The kernel's result term and the reference's result term are one function of finite arguments.

  The kernel's term is the network over the node-scaled convolution; the reference's is the network over the edge-scaled
  one, with the same factor vector and the same index columns (the reference recomputes them per layer, as the same terms).
  The two networks agree when the features, the first two weight matrices and the first bias are real numbers — which the
  precondition says —, the factor is real — a degree is a count, and the inverse square root of a positive count is real —,
  and a destination that names a valid row is neither wrapped nor clamped.
-/
import proofs.«107428_j55207509623327_2_alg».proof.Proof.Bridge
import proofs.«107428_j55207509623327_2_alg».proof.Proof.Gen.Pre_finite_inputs
import proofs.«107428_j55207509623327_2_alg».proof.Proof.RefIsNet
import proofs.«107428_j55207509623327_2_alg».proof.Proof.FiniteArgs
import proofs.«107428_j55207509623327_2_alg».proof.Proof.WrapIndex
import proofs.«107428_j55207509623327_2_alg».proof.Proof.DegreeFactor

noncomputable section

namespace Cert.KernelIdeal.AsNet

open Cert.KernelIdeal Cert.KernelIdeal.Gen Cert.KernelIdeal.Through Idealize.ShloMosaic Idealize.ShloMosaic.ValueIdx
  Cert.TwoLayer Cert.RowIndexing Cert.GcnAlgebra

/-- The destinations with negative entries wrapped, as a column: the index the reference gathers the destination
    factor with. -/
def dstwCol (a1 : IVec S2x800000 32) : IVec S850000x1 32 :=
  broadcastInDim S850000x1 ![0] bcast_S850000_S850000x1_0
    (select (cmpi .slt (dstVec a1) (broadcastInDim S850000 ![] bcast_S_S850000 (constantI S_ 32 0#32)))
      (addi (dstVec a1) (broadcastInDim S850000 ![] bcast_S_S850000 (constantI S_ 32 50000#32))) (dstVec a1))

/-- The vector gather's dimension numbers are well formed. -/
theorem wfV : GatherDims.WF (⟨1, ![50000]⟩ : Shape) ⟨2, ![850000, 1]⟩ ⟨1, ![850000]⟩ [] [0] [] [0] [] 1 ![1] :=
  Cert.ReferenceIdeal.gather_S50000_S850000x1_S850000_n_0_n_n_0_1_1.wf

/-- The factor is a real number at every node. -/
theorem facVec_isFin (a1 : IVec S2x800000 32) (k : S50000.Idx) : IsFin (facVec a1 k) :=
  Cert.DegreeFactor.factor_isFin scatter_S50000_S850000x1_S850000_n_0_0_1 bcast_S_S50000 bcast_S_S50000 bcast_S_S50000
    bcast_S_S850000 (dstCol a1) k

/-- A destination that names a valid row is neither wrapped nor clamped. -/
theorem dst_keeps (a1 : IVec S2x800000 32) (e : Fin 850000) (n : Fin 50000)
    (h : (dstCol a1 (ix2 e (0 : Fin 1))).toInt = (n.val : Int)) :
    clampRow (N := 50000) (by decide) (dstwCol a1) e = n :=
  Cert.WrapIndex.wrap_keeps bcast_S850000_S850000x1_0 bcast_S850000_S850000x1_0 bcast_S_S850000 bcast_S_S850000
    (dstVec a1) e n h

/-! ## The two programs' index columns and factor are the same terms

Both programs compute the edge lists, the wrapped columns, the degree and the factor by the same operations of the
edge-index argument (the reference once per layer): the terms differ only in which program's names spell the shapes. -/

section SameTerms

open Cert.ReferenceIdeal.ReadP

variable (a1 : IVec S2x800000 32)

theorem srcVec_ref : srcVec a1 = val_main_v3 (F := Ideal) a1 := by
  unfold srcVec val_main_v3 val_main_v2 val_main_v1 val_main_v0
  rfl

theorem dstVec_ref : dstVec a1 = val_main_v6 (F := Ideal) a1 := by
  unfold dstVec val_main_v6 val_main_v5 val_main_v4 val_main_v0
  rfl

theorem dstCol_ref : dstCol a1 = val_main_v42 (F := Ideal) a1 := by
  unfold dstCol val_main_v42
  rw [dstVec_ref]

theorem srcwCol_ref : srcwCol a1 = val_main_v36 (F := Ideal) a1 := by
  unfold srcwCol val_main_v36 val_main_v35 val_main_v32 val_main_v34 val_main_v31 val_main_v33 val_main_c_6 val_main_c_7
  rw [srcVec_ref]

theorem dstwCol_ref : dstwCol a1 = val_main_v28 (F := Ideal) a1 := by
  unfold dstwCol val_main_v28 val_main_v27 val_main_v24 val_main_v26 val_main_v23 val_main_v25 val_main_c_4 val_main_c_5
  rw [dstVec_ref]

theorem degVec_ref : degVec a1 = val_main_v11 (F := Ideal) a1 := by
  unfold degVec dstCol val_main_v11 val_main_v9 val_main_v10 val_main_v8 val_main_cst val_main_cst_0
  rw [dstVec_ref]
  rfl

theorem facVec_ref : facVec a1 = val_main_v15 (F := Ideal) a1 := by
  unfold facVec val_main_v15 val_main_v13 val_main_v14 val_main_call0_v1 val_main_call0_v0 val_main_cst_2 val_main_v12
    val_main_cst_1
  rw [degVec_ref]

end SameTerms

/-- THE TWO RESULT TERMS are one function of arguments the precondition holds of. -/
theorem outK_eq_ref (a0 : FVec Ideal S50000x512 .f32) (a1 : IVec S2x800000 32) (a2 : FVec Ideal S512x256 .f32)
    (a3 : FVec Ideal S256 .f32) (a4 : FVec Ideal S256x128 .f32) (a5 : FVec Ideal S128 .f32)
    (a6 : FVec Ideal S128x7 .f32) (a7 : FVec Ideal S7 .f32)
    (hpre : Cert.Pre_finite_inputs.fn (F := Ideal) a0 a1 a2 a3 a4 a5 a6 a7 = fun _ => 1#1) :
    outK a0 a1 a2 a3 a4 a5 a6 a7 = Cert.ReferenceIdeal.ReadP.val_main_v96 (F := Ideal) a0 a1 a2 a3 a4 a5 a6 a7 := by
  obtain ⟨h0, h2, h3, h4⟩ := Cert.FiniteArgs.fin_args a0 a1 a2 a3 a4 a5 a6 a7 hpre
  rw [outK_eq, kerOut_eq_net,
    net_eq (N := 50000) (E := 850000) (by decide) wfG1 wfG2
      wfV wfS1 wfS2
      (facVec a1) (srcwCol a1) (dstCol a1) (dstwCol a1) a0 a2 a3 a4 a5 a6 a7 h0 h2 h3 h4 (facVec_isFin a1) (dst_keeps a1)]
  rw [facVec_ref, srcwCol_ref, dstCol_ref, dstwCol_ref]
  exact (Cert.RefAsNet.ref_is_net a0 a1 a2 a3 a4 a5 a6 a7).symm

end Cert.KernelIdeal.AsNet

end
-- ==== Proof.lean ====
/-
  The certificate of a two-layer graph-convolution kernel against its reference.

  The program: the degree of every node from the destinations of the edge list with self loops appended, the factor
  `d = deg^(-1/2)`; then three grid regions with a gather and a scatter-add between them. The first region stores
  `(x · W1) ⊙ d`, the host gathers its rows along the sources and adds them up at the destinations, the second region
  scales the sums by `d`, adds the bias, takes the maximum with zero, multiplies by `W2` and scales by `d` again, the host
  gathers and adds up once more, and the third region scales, adds the bias, applies the leaky rectifier and the head.
  The reference scales each gathered row by `d[src] · d[dst]` instead. The claims:
  * the three frames: the two kernel programs' by the generated frame proofs; the reference's from its run;
  * the idealization rewrote nothing, so `preserves` is trivial;
  * `algebraic`: the kernel's run ends with its result at one term of the arguments (the run with the result named, the
    three regions' output arrays block by block, the host stretches between them), the reference's run at another, and
    the two terms are one function of arguments the precondition holds of.
-/
import proofs.«107428_j55207509623327_2_alg».proof.Defs
import proofs.«107428_j55207509623327_2_alg».proof.Proof.Gen.Kernel
import proofs.«107428_j55207509623327_2_alg».proof.Proof.Gen.Kernel.Skeleton
import proofs.«107428_j55207509623327_2_alg».proof.Proof.Gen.Kernel.Launch
import proofs.«107428_j55207509623327_2_alg».proof.Proof.Gen.Kernel.Points
import proofs.«107428_j55207509623327_2_alg».proof.Proof.Gen.Kernel.Frame
import proofs.«107428_j55207509623327_2_alg».proof.Proof.Gen.KernelIdeal
import proofs.«107428_j55207509623327_2_alg».proof.Proof.Gen.KernelIdeal.Skeleton
import proofs.«107428_j55207509623327_2_alg».proof.Proof.Gen.KernelIdeal.Launch
import proofs.«107428_j55207509623327_2_alg».proof.Proof.Gen.KernelIdeal.Points
import proofs.«107428_j55207509623327_2_alg».proof.Proof.Gen.KernelIdeal.Frame
import proofs.«107428_j55207509623327_2_alg».proof.Proof.Gen.ReferenceIdeal
import proofs.«107428_j55207509623327_2_alg».proof.Proof.Gen.Pre_finite_inputs
import proofs.«107428_j55207509623327_2_alg».proof.Proof.RefRun
import proofs.«107428_j55207509623327_2_alg».proof.Proof.RefRead
import proofs.«107428_j55207509623327_2_alg».proof.Proof.KRun
import proofs.«107428_j55207509623327_2_alg».proof.Proof.KValue
import proofs.«107428_j55207509623327_2_alg».proof.Proof.Equal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result at the kernel's term of the kernel's arguments: the kernel's by its run and the
    boundaries' composition, the reference's by its run, the agreement of the arguments, and the equality of the two terms
    under the precondition. -/
theorem algebraic : Cert.algebraic_KernelIdeal_ReferenceIdeal := by
  intro m ρ m' ρ' hpre hagree
  refine ⟨fun c => Cert.KernelIdeal.Through.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Through.result_value m ρ c), (h c).2⟩)
      (Cert.KernelIdeal.RunOut.run_out m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7⟩ := hagree c
    rw [Cert.ReferenceIdeal.ReadP.val_main_v96_eq, e0, e1, e2, e3, e4, e5, e6, e7]
    exact (Cert.KernelIdeal.AsNet.outK_eq_ref _ _ _ _ _ _ _ _ (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
